-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x600000 : Shape := ⟨2, ![2, 600000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64x2 : Shape := ⟨2, ![64, 2]⟩
abbrev S2 : Shape := ⟨1, ![2]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S128x64 .f32) (main_arg9 : FVec F S64 .f32) (main_arg10 : FVec F S64x2 .f32) (main_arg11 : FVec F S2 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg10
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_arg10 : FVec F S64x2 .f32) (main_arg11 : FVec F S2 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x3 .f32) (main_arg1 : IVec S2x600000 32) (main_arg2 : FVec F S3x64 .f32) (main_arg3 : FVec F S64 .f32) (main_arg4 : FVec F S64x128 .f32) (main_arg5 : FVec F S128 .f32) (main_arg6 : FVec F S128x128 .f32) (main_arg7 : FVec F S128 .f32) (main_arg8 : FVec F S128x64 .f32) (main_arg9 : FVec F S64 .f32) (main_arg10 : FVec F S64x2 .f32) (main_arg11 : FVec F S2 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg2
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_v13 main_v16
-- ==== Kernel.lean ====
abbrev S100000x3 : Shape := ⟨2, ![100000, 3]⟩
abbrev S2x600000 : Shape := ⟨2, ![2, 600000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64x2 : Shape := ⟨2, ![64, 2]⟩
abbrev S2 : Shape := ⟨1, ![2]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S100000x64 : Shape := ⟨2, ![100000, 64]⟩
abbrev S5000x3 : Shape := ⟨2, ![5000, 3]⟩
abbrev S5000x64 : Shape := ⟨2, ![5000, 64]⟩
abbrev S700000x64 : Shape := ⟨2, ![700000, 64]⟩
abbrev S1x64 : Shape := ⟨2, ![1, 64]⟩
abbrev S100000x128 : Shape := ⟨2, ![100000, 128]⟩
abbrev S5000x128 : Shape := ⟨2, ![5000, 128]⟩
abbrev S700000x128 : Shape := ⟨2, ![700000, 128]⟩
abbrev S1x128 : Shape := ⟨2, ![1, 128]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 113
  | .vmem => 42
  | .smem => 0
  | _ => 0

abbrev bufTy : (tb : Table) → Fin (tcTables nBuf tb) → BufTy
  | .hbm, ⟨0, _⟩ => ⟨S100000x3, .f32⟩
  | .hbm, ⟨1, _⟩ => ⟨S2x600000, .i32⟩
  | .hbm, ⟨2, _⟩ => ⟨S3x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x2, .f32⟩
  | .hbm, ⟨11, _⟩ => ⟨S2, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S100000, .i32⟩
  | .hbm, ⟨17, _⟩ => ⟨S700000, .i32⟩
  | .hbm, ⟨18, _⟩ => ⟨S700000, .i32⟩
  | .hbm, ⟨19, _⟩ => ⟨S_, .f32⟩
  | .hbm, ⟨20, _⟩ => ⟨S700000, .f32⟩
  | .hbm, ⟨21, _⟩ => ⟨S_, .f32⟩
  | .hbm, ⟨22, _⟩ => ⟨S100000, .f32⟩
  | .hbm, ⟨23, _⟩ => ⟨S700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S700000, .i32⟩
  | .hbm, ⟨35, _⟩ => ⟨S700000, .i1⟩
  | .hbm, ⟨36, _⟩ => ⟨S_, .i32⟩
  | .hbm, ⟨37, _⟩ => ⟨S700000, .i32⟩
  | .hbm, ⟨38, _⟩ => ⟨S700000, .i32⟩
  | .hbm, ⟨39, _⟩ => ⟨S700000, .i32⟩
  | .hbm, ⟨40, _⟩ => ⟨S700000x1, .i32⟩
  | .hbm, ⟨41, _⟩ => ⟨S700000, .f32⟩
  | .hbm, ⟨42, _⟩ => ⟨S_, .i32⟩
  | .hbm, ⟨43, _⟩ => ⟨S700000, .i32⟩
  | .hbm, ⟨44, _⟩ => ⟨S700000, .i1⟩
  | .hbm, ⟨45, _⟩ => ⟨S_, .i32⟩
  | .hbm, ⟨46, _⟩ => ⟨S700000, .i32⟩
  | .hbm, ⟨47, _⟩ => ⟨S700000, .i32⟩
  | .hbm, ⟨48, _⟩ => ⟨S700000, .i32⟩
  | .hbm, ⟨49, _⟩ => ⟨S700000x1, .i32⟩
  | .hbm, ⟨50, _⟩ => ⟨S700000, .f32⟩
  | .hbm, ⟨51, _⟩ => ⟨S700000, .f32⟩
  | .hbm, ⟨52, _⟩ => ⟨S100000x64, .f32⟩
  | .hbm, ⟨53, _⟩ => ⟨S_, .i32⟩
  | .hbm, ⟨54, _⟩ => ⟨S700000, .i32⟩
  | .hbm, ⟨55, _⟩ => ⟨S700000, .i1⟩
  | .hbm, ⟨56, _⟩ => ⟨S_, .i32⟩
  | .hbm, ⟨57, _⟩ => ⟨S700000, .i32⟩
  | .hbm, ⟨58, _⟩ => ⟨S700000, .i32⟩
  | .hbm, ⟨59, _⟩ => ⟨S700000, .i32⟩
  | .hbm, ⟨60, _⟩ => ⟨S700000x1, .i32⟩
  | .hbm, ⟨61, _⟩ => ⟨S700000x64, .f32⟩
  | .hbm, ⟨62, _⟩ => ⟨S700000x1, .f32⟩
  | .hbm, ⟨63, _⟩ => ⟨S700000x64, .f32⟩
  | .hbm, ⟨64, _⟩ => ⟨S700000x64, .f32⟩
  | .hbm, ⟨65, _⟩ => ⟨S_, .f32⟩
  | .hbm, ⟨66, _⟩ => ⟨S100000x64, .f32⟩
  | .hbm, ⟨67, _⟩ => ⟨S700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x128, .f32⟩
  | .hbm, ⟨72, _⟩ => ⟨S_, .i32⟩
  | .hbm, ⟨73, _⟩ => ⟨S700000, .i32⟩
  | .hbm, ⟨74, _⟩ => ⟨S700000, .i1⟩
  | .hbm, ⟨75, _⟩ => ⟨S_, .i32⟩
  | .hbm, ⟨76, _⟩ => ⟨S700000, .i32⟩
  | .hbm, ⟨77, _⟩ => ⟨S700000, .i32⟩
  | .hbm, ⟨78, _⟩ => ⟨S700000, .i32⟩
  | .hbm, ⟨79, _⟩ => ⟨S700000x1, .i32⟩
  | .hbm, ⟨80, _⟩ => ⟨S700000x128, .f32⟩
  | .hbm, ⟨81, _⟩ => ⟨S700000x1, .f32⟩
  | .hbm, ⟨82, _⟩ => ⟨S700000x128, .f32⟩
  | .hbm, ⟨83, _⟩ => ⟨S700000x128, .f32⟩
  | .hbm, ⟨84, _⟩ => ⟨S_, .f32⟩
  | .hbm, ⟨85, _⟩ => ⟨S100000x128, .f32⟩
  | .hbm, ⟨86, _⟩ => ⟨S700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .i32⟩
  | .hbm, ⟨92, _⟩ => ⟨S700000, .i32⟩
  | .hbm, ⟨93, _⟩ => ⟨S700000, .i1⟩
  | .hbm, ⟨94, _⟩ => ⟨S_, .i32⟩
  | .hbm, ⟨95, _⟩ => ⟨S700000, .i32⟩
  | .hbm, ⟨96, _⟩ => ⟨S700000, .i32⟩
  | .hbm, ⟨97, _⟩ => ⟨S700000, .i32⟩
  | .hbm, ⟨98, _⟩ => ⟨S700000x1, .i32⟩
  | .hbm, ⟨99, _⟩ => ⟨S700000x128, .f32⟩
  | .hbm, ⟨100, _⟩ => ⟨S700000x1, .f32⟩
  | .hbm, ⟨101, _⟩ => ⟨S700000x128, .f32⟩
  | .hbm, ⟨102, _⟩ => ⟨S700000x128, .f32⟩
  | .hbm, ⟨103, _⟩ => ⟨S_, .f32⟩
  | .hbm, ⟨104, _⟩ => ⟨S100000x128, .f32⟩
  | .hbm, ⟨105, _⟩ => ⟨S700000x1, .i32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S1x64, .f32⟩
  | .hbm, ⟨110, _⟩ => ⟨S100000x64, .f32⟩
  | .hbm, ⟨111, _⟩ => ⟨S1x2, .f32⟩
  | .hbm, ⟨112, _⟩ => ⟨S100000x2, .f32⟩
  | .local _ .vmem, ⟨0, _⟩ => ⟨S5000x3, .f32⟩
  | .local _ .vmem, ⟨1, _⟩ => ⟨S5000x3, .f32⟩
  | .local _ .vmem, ⟨2, _⟩ => ⟨S3x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x2, .f32⟩
  | .local _ .vmem, ⟨39, _⟩ => ⟨S1x2, .f32⟩
  | .local _ .vmem, ⟨40, _⟩ => ⟨S5000x2, .f32⟩
  | .local _ .vmem, ⟨41, _⟩ => ⟨S5000x2, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_c_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_c_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_14 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg3_0 : Ref sig .tc := ⟨.vmem, 40, rfl⟩
abbrev cc7_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem3_0 : DmaSem sig := 40
abbrev cc7_sem3_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x2 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x2 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x2 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S5000x64_S5000x64_0_0 : ∀ a, (![0, 0] : Fin 2 → Nat) a + S5000x64.size a ≤ S5000x64.size a
  h_S5000x64 : 0 < S5000x64.numel
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x3_S3x64_S5000x64_1_0_0_1_n_n_wf : DotDims.WF S5000x3 S3x64 S5000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  dot_S5000x64_S64x128_S5000x128_1_0_0_1_n_n_wf : DotDims.WF S5000x64 S64x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S100000x64.size a
  hwx6_3 : ∀ i : grid6.Coords, EltTy.bits .f32 = 32 ∨ (Rect.block (s := S100000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x2.size a ≤ S64x2.size a
  hwx7_1 : ∀ i : grid7.Coords, EltTy.bits .f32 = 32 ∨ (Rect.block (s := S64x2) S64x2.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x2.size a ≤ S1x2.size a
  hwx7_2 : ∀ i : grid7.Coords, EltTy.bits .f32 = 32 ∨ (Rect.block (s := S1x2) S1x2.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x2.size a ≤ S100000x2.size a
  hwx7_3 : ∀ i : grid7.Coords, EltTy.bits .f32 = 32 ∨ (Rect.block (s := S100000x2) S5000x2.size (cc7_transform_3 i) (hinb7_3 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x3_S3x64_S5000x64_1_0_0_1_n_n : DotDims S5000x3 S3x64 S5000x64 where
  lhsContracting := [1]
  rhsContracting := [0]
  lhsNonContracting := [0]
  rhsNonContracting := [1]
  lhsBatch := []
  rhsBatch := []
  wf := dot_S5000x3_S3x64_S5000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v77) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v78) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v79) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v79) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S64x2.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v80) S1x2.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v81) S5000x2.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x3 : Shape := ⟨2, ![100000, 3]⟩
abbrev S2x600000 : Shape := ⟨2, ![2, 600000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64x2 : Shape := ⟨2, ![64, 2]⟩
abbrev S2 : Shape := ⟨1, ![2]⟩
abbrev S1x600000 : Shape := ⟨2, ![1, 600000]⟩
abbrev S600000 : Shape := ⟨1, ![600000]⟩
abbrev S100000x64 : Shape := ⟨2, ![100000, 64]⟩
abbrev S100000 : Shape := ⟨1, ![100000]⟩
abbrev S700000 : Shape := ⟨1, ![700000]⟩
abbrev S_ : Shape := ⟨0, ![]⟩
abbrev S700000x1 : Shape := ⟨2, ![700000, 1]⟩
abbrev S700000x64 : Shape := ⟨2, ![700000, 64]⟩
abbrev S1x64 : Shape := ⟨2, ![1, 64]⟩
abbrev S100000x128 : Shape := ⟨2, ![100000, 128]⟩
abbrev S700000x128 : Shape := ⟨2, ![700000, 128]⟩
abbrev S1x128 : Shape := ⟨2, ![1, 128]⟩
abbrev S100000x2 : Shape := ⟨2, ![100000, 2]⟩
abbrev S1x2 : Shape := ⟨2, ![1, 2]⟩

abbrev nBuf : Space → Nat
  | .hbm => 204
  | .vmem => 0
  | .smem => 0
  | _ => 0

abbrev hbmTy0_0 (i : Nat) : BufTy := match i % 128 with
  | 0 => ⟨S100000x3, .f32⟩
  | 1 => ⟨S2x600000, .i32⟩
  | 2 => ⟨S3x64, .f32⟩
  | 3 => ⟨S64, .f32⟩
  | 4 => ⟨S64x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S64x2, .f32⟩
  | 11 => ⟨S2, .f32⟩
  | 12 => ⟨S1x600000, .i32⟩
  | 13 => ⟨S600000, .i32⟩
  | 14 => ⟨S1x600000, .i32⟩
  | 15 => ⟨S600000, .i32⟩
  | 16 => ⟨S100000x64, .f32⟩
  | 17 => ⟨S100000, .i32⟩
  | 18 => ⟨S700000, .i32⟩
  | 19 => ⟨S700000, .i32⟩
  | 20 => ⟨S_, .f32⟩
  | 21 => ⟨S700000, .f32⟩
  | 22 => ⟨S_, .f32⟩
  | 23 => ⟨S100000, .f32⟩
  | 24 => ⟨S700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S700000, .i32⟩
  | 36 => ⟨S700000, .i1⟩
  | 37 => ⟨S_, .i32⟩
  | 38 => ⟨S700000, .i32⟩
  | 39 => ⟨S700000, .i32⟩
  | 40 => ⟨S700000, .i32⟩
  | 41 => ⟨S700000x1, .i32⟩
  | 42 => ⟨S700000, .f32⟩
  | 43 => ⟨S_, .i32⟩
  | 44 => ⟨S700000, .i32⟩
  | 45 => ⟨S700000, .i1⟩
  | 46 => ⟨S_, .i32⟩
  | 47 => ⟨S700000, .i32⟩
  | 48 => ⟨S700000, .i32⟩
  | 49 => ⟨S700000, .i32⟩
  | 50 => ⟨S700000x1, .i32⟩
  | 51 => ⟨S700000, .f32⟩
  | 52 => ⟨S700000, .f32⟩
  | 53 => ⟨S_, .i32⟩
  | 54 => ⟨S700000, .i32⟩
  | 55 => ⟨S700000, .i1⟩
  | 56 => ⟨S_, .i32⟩
  | 57 => ⟨S700000, .i32⟩
  | 58 => ⟨S700000, .i32⟩
  | 59 => ⟨S700000, .i32⟩
  | 60 => ⟨S700000x1, .i32⟩
  | 61 => ⟨S700000x64, .f32⟩
  | 62 => ⟨S700000x1, .f32⟩
  | 63 => ⟨S700000x64, .f32⟩
  | 64 => ⟨S700000x64, .f32⟩
  | 65 => ⟨S_, .f32⟩
  | 66 => ⟨S100000x64, .f32⟩
  | 67 => ⟨S700000x1, .i32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x128, .f32⟩
  | 76 => ⟨S100000, .i32⟩
  | 77 => ⟨S700000, .i32⟩
  | 78 => ⟨S700000, .i32⟩
  | 79 => ⟨S_, .f32⟩
  | 80 => ⟨S700000, .f32⟩
  | 81 => ⟨S_, .f32⟩
  | 82 => ⟨S100000, .f32⟩
  | 83 => ⟨S700000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S700000, .i32⟩
  | 95 => ⟨S700000, .i1⟩
  | 96 => ⟨S_, .i32⟩
  | 97 => ⟨S700000, .i32⟩
  | 98 => ⟨S700000, .i32⟩
  | 99 => ⟨S700000, .i32⟩
  | 100 => ⟨S700000x1, .i32⟩
  | 101 => ⟨S700000, .f32⟩
  | 102 => ⟨S_, .i32⟩
  | 103 => ⟨S700000, .i32⟩
  | 104 => ⟨S700000, .i1⟩
  | 105 => ⟨S_, .i32⟩
  | 106 => ⟨S700000, .i32⟩
  | 107 => ⟨S700000, .i32⟩
  | 108 => ⟨S700000, .i32⟩
  | 109 => ⟨S700000x1, .i32⟩
  | 110 => ⟨S700000, .f32⟩
  | 111 => ⟨S700000, .f32⟩
  | 112 => ⟨S_, .i32⟩
  | 113 => ⟨S700000, .i32⟩
  | 114 => ⟨S700000, .i1⟩
  | 115 => ⟨S_, .i32⟩
  | 116 => ⟨S700000, .i32⟩
  | 117 => ⟨S700000, .i32⟩
  | 118 => ⟨S700000, .i32⟩
  | 119 => ⟨S700000x1, .i32⟩
  | 120 => ⟨S700000x128, .f32⟩
  | 121 => ⟨S700000x1, .f32⟩
  | 122 => ⟨S700000x128, .f32⟩
  | 123 => ⟨S700000x128, .f32⟩
  | 124 => ⟨S_, .f32⟩
  | 125 => ⟨S100000x128, .f32⟩
  | 126 => ⟨S700000x1, .i32⟩
  | 127 => ⟨S100000x128, .f32⟩
  | _ => ⟨S100000x3, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x128, .f32⟩
  | 7 => ⟨S100000, .i32⟩
  | 8 => ⟨S700000, .i32⟩
  | 9 => ⟨S700000, .i32⟩
  | 10 => ⟨S_, .f32⟩
  | 11 => ⟨S700000, .f32⟩
  | 12 => ⟨S_, .f32⟩
  | 13 => ⟨S100000, .f32⟩
  | 14 => ⟨S700000x1, .i32⟩
  | 15 => ⟨S100000, .f32⟩
  | 16 => ⟨S_, .f32⟩
  | 17 => ⟨S100000, .f32⟩
  | 18 => ⟨S100000, .i1⟩
  | 19 => ⟨S100000, .f32⟩
  | 20 => ⟨S_, .f32⟩
  | 21 => ⟨S_, .f32⟩
  | 22 => ⟨S100000, .f32⟩
  | 23 => ⟨S100000, .f32⟩
  | 24 => ⟨S_, .i32⟩
  | 25 => ⟨S700000, .i32⟩
  | 26 => ⟨S700000, .i1⟩
  | 27 => ⟨S_, .i32⟩
  | 28 => ⟨S700000, .i32⟩
  | 29 => ⟨S700000, .i32⟩
  | 30 => ⟨S700000, .i32⟩
  | 31 => ⟨S700000x1, .i32⟩
  | 32 => ⟨S700000, .f32⟩
  | 33 => ⟨S_, .i32⟩
  | 34 => ⟨S700000, .i32⟩
  | 35 => ⟨S700000, .i1⟩
  | 36 => ⟨S_, .i32⟩
  | 37 => ⟨S700000, .i32⟩
  | 38 => ⟨S700000, .i32⟩
  | 39 => ⟨S700000, .i32⟩
  | 40 => ⟨S700000x1, .i32⟩
  | 41 => ⟨S700000, .f32⟩
  | 42 => ⟨S700000, .f32⟩
  | 43 => ⟨S_, .i32⟩
  | 44 => ⟨S700000, .i32⟩
  | 45 => ⟨S700000, .i1⟩
  | 46 => ⟨S_, .i32⟩
  | 47 => ⟨S700000, .i32⟩
  | 48 => ⟨S700000, .i32⟩
  | 49 => ⟨S700000, .i32⟩
  | 50 => ⟨S700000x1, .i32⟩
  | 51 => ⟨S700000x128, .f32⟩
  | 52 => ⟨S700000x1, .f32⟩
  | 53 => ⟨S700000x128, .f32⟩
  | 54 => ⟨S700000x128, .f32⟩
  | 55 => ⟨S_, .f32⟩
  | 56 => ⟨S100000x128, .f32⟩
  | 57 => ⟨S700000x1, .i32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x2, .f32⟩
  | 73 => ⟨S1x2, .f32⟩
  | 74 => ⟨S100000x2, .f32⟩
  | 75 => ⟨S100000x2, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v59 : Ref sig .tc := ⟨.hbm, 92, rfl⟩
abbrev main_c_13 : Ref sig .tc := ⟨.hbm, 93, rfl⟩
abbrev main_v60 : Ref sig .tc := ⟨.hbm, 94, rfl⟩
abbrev main_v61 : Ref sig .tc := ⟨.hbm, 95, rfl⟩
abbrev main_c_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_15 : Ref sig .tc := ⟨.hbm, 102, rfl⟩
abbrev main_v67 : Ref sig .tc := ⟨.hbm, 103, rfl⟩
abbrev main_v68 : Ref sig .tc := ⟨.hbm, 104, rfl⟩
abbrev main_c_16 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_17 : Ref sig .tc := ⟨.hbm, 112, rfl⟩
abbrev main_v75 : Ref sig .tc := ⟨.hbm, 113, rfl⟩
abbrev main_v76 : Ref sig .tc := ⟨.hbm, 114, rfl⟩
abbrev main_c_18 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_call3_cst : Ref sig .tc := ⟨.hbm, 131, rfl⟩
abbrev main_call3_v0 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_20 : Ref sig .tc := ⟨.hbm, 138, rfl⟩
abbrev main_v96 : Ref sig .tc := ⟨.hbm, 139, rfl⟩
abbrev main_cst_21 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_22 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_cst_23 : Ref sig .tc := ⟨.hbm, 148, rfl⟩
abbrev main_call4_v0 : Ref sig .tc := ⟨.hbm, 149, rfl⟩
abbrev main_call4_v1 : Ref sig .tc := ⟨.hbm, 150, rfl⟩
abbrev main_v103 : Ref sig .tc := ⟨.hbm, 151, rfl⟩
abbrev main_c_24 : Ref sig .tc := ⟨.hbm, 152, rfl⟩
abbrev main_v104 : Ref sig .tc := ⟨.hbm, 153, rfl⟩
abbrev main_v105 : Ref sig .tc := ⟨.hbm, 154, rfl⟩
abbrev main_c_25 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_c_26 : Ref sig .tc := ⟨.hbm, 161, rfl⟩
abbrev main_v111 : Ref sig .tc := ⟨.hbm, 162, rfl⟩
abbrev main_v112 : Ref sig .tc := ⟨.hbm, 163, rfl⟩
abbrev main_c_27 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_c_28 : Ref sig .tc := ⟨.hbm, 171, rfl⟩
abbrev main_v119 : Ref sig .tc := ⟨.hbm, 172, rfl⟩
abbrev main_v120 : Ref sig .tc := ⟨.hbm, 173, rfl⟩
abbrev main_c_29 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_cst_30 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_call5_cst : Ref sig .tc := ⟨.hbm, 190, rfl⟩
abbrev main_call5_v0 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_call6_cst : Ref sig .tc := ⟨.hbm, 197, rfl⟩
abbrev main_call6_v0 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x3_S3x64_S100000x64_1_0_0_1_n_n_wf : DotDims.WF S100000x3 S3x64 S100000x64 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  dot_S100000x64_S64x128_S100000x128_1_0_0_1_n_n_wf : DotDims.WF S100000x64 S64x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []

variable [Facts₀]

def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.Spec.lean ====
/-
  The network both programs compute, written once as a composition of small named stages (over any float values; read
  at the extended reals where the two programs are compared).

  A graph convolution over N = 100000 nodes and E = 600000 edges, each node also joined to itself (700000 messages):
  with s, d the source and target node of each message, deg(v) the number of messages arriving at v and
  dinv(v) = deg(v)^(-1/2) (0 where deg(v) = 0), a layer sends a feature table h to
      max(0, Σ_{messages e with d(e) = v} dinv(s(e)) · dinv(d(e)) · (h · W)[s(e)] + b).
  Three such layers (3 → 64 → 128 → 128 features) are followed by two dense layers (128 → 64 with the same
  max(0, ·), then 64 → 2 without it).

  Every stage below is stated with the host operations of the reference program itself, so the reference's composed
  result is this composition word for word (`reference_result_eq`). A negative node index is read as counting from the
  end (`wrapIdx`), exactly as both programs do; nothing is assumed about the range of the indices.
-/
import proofs.«170732_j32890859553003_1_alg».proof.ReferenceIdeal
import proofs.«170732_j32890859553003_1_alg».proof.Proof.RefRun
import Idealize.ShloMosaic.PureOps.Ideal

set_option maxRecDepth 16384

noncomputable section

namespace Cert.GcnSpec

open Idealize.ShloMosaic Idealize.ShloMosaic.TcCoe Idealize.SL.Sem Cert.ReferenceIdeal Cert.ReferenceIdeal.Gen

/-- The contents of an array of shape `s` and element type `e`, over float values `F`. -/
abbrev Arr (F : FTy → Type) (s : Shape) (e : EltTy) : Type := (⟨s, e⟩ : BufTy).Contents (Elt F)

variable {F : FTy → Type} [FloatOps F]

/-! ## The messages' endpoints -/

/-- Row `r` of the edge list followed by the nodes themselves (the self loops): one endpoint of every message. -/
def srcIdx (ei : Arr F S2x600000 .i32) : Arr F S700000 .i32 :=
  concatenate S700000 0 [⟨S600000, (shapeCast _ (extractStridedSlice S1x600000 ![0, 0] ei slices_S2x600000_S1x600000_0_0) shapeCasts_S1x600000_S600000)⟩, ⟨S100000, (iotaInDim S100000 32 0)⟩] concatenates_S600000_S100000_S700000_d0

def dstIdx (ei : Arr F S2x600000 .i32) : Arr F S700000 .i32 :=
  concatenate S700000 0 [⟨S600000, (shapeCast _ (extractStridedSlice S1x600000 ![1, 0] ei slices_S2x600000_S1x600000_1_0) shapeCasts_S1x600000_S600000)⟩, ⟨S100000, (iotaInDim S100000 32 0)⟩] concatenates_S600000_S100000_S700000_d0

/-- A negative index counts from the end of the node axis. -/
def wrapIdx (s : Arr F S700000 .i32) : Arr F S700000 .i32 :=
  select (cmpi .slt s (broadcastInDim S700000 ![] bcast_S_S700000 (constantI S_ 32 0#32))) (addi s (broadcastInDim S700000 ![] bcast_S_S700000 (constantI S_ 32 100000#32))) s

/-! ## The symmetric normalisation -/

/-- The number of messages arriving at each node. -/
def degree (ei : Arr F S2x600000 .i32) : Arr F S100000 .f32 :=
  Host.scatterAdd scatter_S100000_S700000x1_S700000_n_0_0_1 (broadcastInDim S100000 ![] bcast_S_S100000 (constant S_ .f32 0x00000000#32)) (broadcastInDim S700000x1 ![0] bcast_S700000_S700000x1_0 (dstIdx ei)) (broadcastInDim S700000 ![] bcast_S_S700000 (constant S_ .f32 0x3F800000#32))

/-- deg^(-1/2), and 0 where deg is not positive, of a given degree array. -/
def invSqrtOf (deg : Arr F S100000 .f32) : Arr F S100000 .f32 :=
  select (cmpf (F := F) .ogt deg (broadcastInDim S100000 ![] bcast_S_S100000 (constant S_ .f32 0x00000000#32))) (Host.rsqrt deg) (broadcastInDim S100000 ![] bcast_S_S100000 (id (constant S_ .f32 0x00000000#32)))

/-- deg^(-1/2), and 0 at a node no message reaches. -/
def invSqrtDegree (ei : Arr F S2x600000 .i32) : Arr F S100000 .f32 := invSqrtOf (degree ei)

/-- The messages' weights from given endpoints `s`, `d` and a given node factor: the factor at the source times the
    factor at the target. -/
def edgeNormOf (dinv : Arr F S100000 .f32) (s d : Arr F S700000 .i32) : Arr F S700000 .f32 :=
  mulf (Host.gather gather_S100000_S700000x1_S700000_n_0_n_n_0_1_1 dinv (broadcastInDim S700000x1 ![0] bcast_S700000_S700000x1_0 (wrapIdx s))) (Host.gather gather_S100000_S700000x1_S700000_n_0_n_n_0_1_1 dinv (broadcastInDim S700000x1 ![0] bcast_S700000_S700000x1_0 (wrapIdx d)))

/-- The weight of each message: dinv at its source times dinv at its target. -/
def edgeNorm (ei : Arr F S2x600000 .i32) : Arr F S700000 .f32 := edgeNormOf (invSqrtDegree ei) (srcIdx ei) (dstIdx ei)

/-! ## Aggregation: each node sums the weighted rows of its incoming messages' sources -/

/-- Aggregation of a 64-column table along given endpoints with given weights. -/
def aggregateOf64 (s d : Arr F S700000 .i32) (nrm : Arr F S700000 .f32) (h : Arr F S100000x64 .f32) : Arr F S100000x64 .f32 :=
  Host.scatterAdd scatter_S100000x64_S700000x1_S700000x64_1_0_0_1 (broadcastInDim S100000x64 ![] bcast_S_S100000x64 (constant S_ .f32 0x00000000#32)) (broadcastInDim S700000x1 ![0] bcast_S700000_S700000x1_0 d) (mulf (Host.gather gather_S100000x64_S700000x1_S700000x64_1_0_n_n_0_1_164 h (broadcastInDim S700000x1 ![0] bcast_S700000_S700000x1_0 (wrapIdx s))) (broadcastInDim S700000x64 ![0, 1] bcast_S700000x1_S700000x64_0_1 (broadcastInDim S700000x1 ![0] bcast_S700000_S700000x1_0 nrm)))

/-- Aggregation of a 128-column table along given endpoints with given weights. -/
def aggregateOf128 (s d : Arr F S700000 .i32) (nrm : Arr F S700000 .f32) (h : Arr F S100000x128 .f32) : Arr F S100000x128 .f32 :=
  Host.scatterAdd scatter_S100000x128_S700000x1_S700000x128_1_0_0_1 (broadcastInDim S100000x128 ![] bcast_S_S100000x128 (constant S_ .f32 0x00000000#32)) (broadcastInDim S700000x1 ![0] bcast_S700000_S700000x1_0 d) (mulf (Host.gather gather_S100000x128_S700000x1_S700000x128_1_0_n_n_0_1_1128 h (broadcastInDim S700000x1 ![0] bcast_S700000_S700000x1_0 (wrapIdx s))) (broadcastInDim S700000x128 ![0, 1] bcast_S700000x1_S700000x128_0_1 (broadcastInDim S700000x1 ![0] bcast_S700000_S700000x1_0 nrm)))

def aggregate64 (ei : Arr F S2x600000 .i32) (h : Arr F S100000x64 .f32) : Arr F S100000x64 .f32 :=
  aggregateOf64 (srcIdx ei) (dstIdx ei) (edgeNorm ei) h

def aggregate128 (ei : Arr F S2x600000 .i32) (h : Arr F S100000x128 .f32) : Arr F S100000x128 .f32 :=
  aggregateOf128 (srcIdx ei) (dstIdx ei) (edgeNorm ei) h

/-! ## The dense stages -/

def proj3x64 (x : Arr F S100000x3 .f32) (w : Arr F S3x64 .f32) : Arr F S100000x64 .f32 :=
  Host.dotGeneral dot_S100000x3_S3x64_S100000x64_1_0_0_1_n_n none x w
def proj64x128 (x : Arr F S100000x64 .f32) (w : Arr F S64x128 .f32) : Arr F S100000x128 .f32 :=
  Host.dotGeneral dot_S100000x64_S64x128_S100000x128_1_0_0_1_n_n none x w
def proj128x128 (x : Arr F S100000x128 .f32) (w : Arr F S128x128 .f32) : Arr F S100000x128 .f32 :=
  Host.dotGeneral dot_S100000x128_S128x128_S100000x128_1_0_0_1_n_n none x w
def proj128x64 (x : Arr F S100000x128 .f32) (w : Arr F S128x64 .f32) : Arr F S100000x64 .f32 :=
  Host.dotGeneral dot_S100000x128_S128x64_S100000x64_1_0_0_1_n_n none x w
def proj64x2 (x : Arr F S100000x64 .f32) (w : Arr F S64x2 .f32) : Arr F S100000x2 .f32 :=
  Host.dotGeneral dot_S100000x64_S64x2_S100000x2_1_0_0_1_n_n none x w

/-- A bias added to every row. -/
def addBias64 (a : Arr F S100000x64 .f32) (b : Arr F S64 .f32) : Arr F S100000x64 .f32 :=
  addf a (broadcastInDim S100000x64 ![0, 1] bcast_S1x64_S100000x64_0_1 (broadcastInDim S1x64 ![1] bcast_S64_S1x64_1 b))
def addBias128 (a : Arr F S100000x128 .f32) (b : Arr F S128 .f32) : Arr F S100000x128 .f32 :=
  addf a (broadcastInDim S100000x128 ![0, 1] bcast_S1x128_S100000x128_0_1 (broadcastInDim S1x128 ![1] bcast_S128_S1x128_1 b))
def addBias2 (a : Arr F S100000x2 .f32) (b : Arr F S2 .f32) : Arr F S100000x2 .f32 :=
  addf a (broadcastInDim S100000x2 ![0, 1] bcast_S1x2_S100000x2_0_1 (broadcastInDim S1x2 ![1] bcast_S2_S1x2_1 b))

/-- max(0, ·), entry by entry. -/
def relu64 (a : Arr F S100000x64 .f32) : Arr F S100000x64 .f32 :=
  maximumf a (broadcastInDim S100000x64 ![] bcast_S_S100000x64 (constant S_ .f32 0x00000000#32))
def relu128 (a : Arr F S100000x128 .f32) : Arr F S100000x128 .f32 :=
  maximumf a (broadcastInDim S100000x128 ![] bcast_S_S100000x128 (constant S_ .f32 0x00000000#32))

/-! ## The network -/

def hidden1 (x : Arr F S100000x3 .f32) (ei : Arr F S2x600000 .i32) (w1 : Arr F S3x64 .f32) (b1 : Arr F S64 .f32) : Arr F S100000x64 .f32 :=
  relu64 (addBias64 (aggregate64 ei (proj3x64 x w1)) b1)
def hidden2 (ei : Arr F S2x600000 .i32) (h : Arr F S100000x64 .f32) (w2 : Arr F S64x128 .f32) (b2 : Arr F S128 .f32) : Arr F S100000x128 .f32 :=
  relu128 (addBias128 (aggregate128 ei (proj64x128 h w2)) b2)
def hidden3 (ei : Arr F S2x600000 .i32) (h : Arr F S100000x128 .f32) (w3 : Arr F S128x128 .f32) (b3 : Arr F S128 .f32) : Arr F S100000x128 .f32 :=
  relu128 (addBias128 (aggregate128 ei (proj128x128 h w3)) b3)
def dense1 (h : Arr F S100000x128 .f32) (fw1 : Arr F S128x64 .f32) (fb1 : Arr F S64 .f32) : Arr F S100000x64 .f32 :=
  relu64 (addBias64 (proj128x64 h fw1) fb1)
def dense2 (h : Arr F S100000x64 .f32) (fw2 : Arr F S64x2 .f32) (fb2 : Arr F S2 .f32) : Arr F S100000x2 .f32 :=
  addBias2 (proj64x2 h fw2) fb2

/-- The whole network as one function of the twelve arguments. -/
def network (x : Arr F S100000x3 .f32) (ei : Arr F S2x600000 .i32) (w1 : Arr F S3x64 .f32) (b1 : Arr F S64 .f32)
    (w2 : Arr F S64x128 .f32) (b2 : Arr F S128 .f32) (w3 : Arr F S128x128 .f32) (b3 : Arr F S128 .f32)
    (fw1 : Arr F S128x64 .f32) (fb1 : Arr F S64 .f32) (fw2 : Arr F S64x2 .f32) (fb2 : Arr F S2 .f32) : Arr F S100000x2 .f32 :=
  dense2 (dense1 (hidden3 ei (hidden2 ei (hidden1 x ei w1 b1) w2 b2) w3 b3) fw1 fb1) fw2 fb2

/-- The reference program's composed result is the network of its argument arrays: the same operations in the same
    order, the normalisation it recomputes in every layer being one and the same term. -/
theorem reference_result_eq (m : (ℓ : Loc nD τ sig) → Buf (Elt F) ℓ) (c : Dev nD) :
    Cert.ReferenceIdeal.ValueP.res_main_v144 (F := F) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  unfold Cert.ReferenceIdeal.ValueP.res_main_v144
  rfl

end Cert.GcnSpec

end
-- ==== Proof.KernelRun.lean ====
/-
  The idealized kernel program's run with its result named: every weakly fair execution ends, nothing faulting, with
  the result array at what the last segment boundary holds for it and the twelve argument arrays as launched. The
  program is sixteen segments (host stretches and the eight regions); the contents at each boundary are a fold from the
  launch memory, and the final state is read against the last boundary's contents.
-/
import proofs.«170732_j32890859553003_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the sixteen segments; the final state read at every unscoped buffer, the result's among them. -/
theorem run_result : θ_run defs (onTc (τ := τ) (main (F := F))) ⟨m, fun _ => 0, ρ⟩ (fun r => ∀ c : Dev nD,
      r.2.mem ((c.tc : Thread nD τ).loc main_v81) = W16 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v81 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c)⟩)

end Cert.KernelIdeal.ResultRun

end
-- ==== Proof.Walk.lean ====
/-
  What the segments of the kernel program leave alone. The contents of the TensorCore's buffers at the sixteen segment
  boundaries are a fold from the launch memory: a host stretch rewrites only its own result buffers, a region only its
  output array (an array a region reads through an input window is kept as that window's array). Hence each of the twelve argument arrays holds its launch contents at every boundary, and the three
  buffers computed once before the first region — the messages' sources, their targets and their weights — hold, at
  every later boundary where an aggregation reads them, what they held when the first region was entered.
-/
import proofs.«170732_j32890859553003_1_alg».proof.Proof.Gen.KernelIdeal.Frame

set_option maxRecDepth 16384

noncomputable section

namespace Cert.KernelIdeal.Walk

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The twelve argument arrays. -/
def args : List (Ref sig .tc) := [main_arg0, main_arg1, main_arg2, main_arg3, main_arg4, main_arg5, main_arg6, main_arg7, main_arg8, main_arg9, main_arg10, main_arg11]

/-- The messages' sources, targets and weights: computed before the first region, read by every aggregation. -/
def graph : List (Ref sig .tc) := [main_v5, main_v6, main_v29]

/-- A buffer that no operation of a literal host stretch writes keeps its contents over the stretch: the stretch's
    result buffers are listed and each is a different buffer. -/
local macro "keep_host" ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

/-! ## The argument arrays over each segment -/

theorem args_keep0 (b : Ref sig .tc) (hb : b ∈ args) :
    W1 m ρ c (Proc.devRef .tc b) = W0 m ρ c (Proc.devRef .tc b) := by
  simp only [args, List.mem_cons, List.mem_nil_iff, or_false] at hb
  rcases hb with rfl | rfl | rfl | rfl | rfl | rfl | rfl | rfl | rfl | rfl | rfl | rfl
  all_goals keep_host hostOps0

theorem args_keep1 (b : Ref sig .tc) (hb : b ∈ args) :
    W2 m ρ c (Proc.devRef .tc b) = W1 m ρ c (Proc.devRef .tc b) := by
  simp only [args, List.mem_cons, List.mem_nil_iff, or_false] at hb
  rcases hb with rfl | rfl | rfl | rfl | rfl | rfl | rfl | rfl | rfl | rfl | rfl | rfl
  all_goals keep_host hostOps0_1

theorem args_keep2 (b : Ref sig .tc) (hb : b ∈ args) :
    W3 m ρ c (Proc.devRef .tc b) = W2 m ρ c (Proc.devRef .tc b) := by
  simp only [args, List.mem_cons, List.mem_nil_iff, or_false] at hb
  rcases hb with rfl | rfl | rfl | rfl | rfl | rfl | rfl | rfl | rfl | rfl | rfl | rfl
  all_goals keep_host hostOps0_2

theorem args_keep3 (b : Ref sig .tc) (hb : b ∈ args) :
    W4 m ρ c (Proc.devRef .tc b) = W3 m ρ c (Proc.devRef .tc b) := by
  simp only [args, List.mem_cons, List.mem_nil_iff, or_false] at hb
  rcases hb with rfl | rfl | rfl | rfl | rfl | rfl | rfl | rfl | rfl | rfl | rfl | rfl
  all_goals first
    | exact W4_of_ne m ρ c _ (by decide)
    | exact (W4_arr m ρ c 0).trans (((dat0 (V3 m ρ) c).arrAt_in 0 rfl _).trans (A_eq0 (V3 m ρ) c 0))
    | exact (W4_arr m ρ c 1).trans (((dat0 (V3 m ρ) c).arrAt_in 1 rfl _).trans (A_eq0 (V3 m ρ) c 1))

theorem args_keep4 (b : Ref sig .tc) (hb : b ∈ args) :
    W5 m ρ c (Proc.devRef .tc b) = W4 m ρ c (Proc.devRef .tc b) := by
  simp only [args, List.mem_cons, List.mem_nil_iff, or_false] at hb
  rcases hb with rfl | rfl | rfl | rfl | rfl | rfl | rfl | rfl | rfl | rfl | rfl | rfl
  all_goals keep_host hostOps1

theorem args_keep5 (b : Ref sig .tc) (hb : b ∈ args) :
    W6 m ρ c (Proc.devRef .tc b) = W5 m ρ c (Proc.devRef .tc b) := by
  simp only [args, List.mem_cons, List.mem_nil_iff, or_false] at hb
  rcases hb with rfl | rfl | rfl | rfl | rfl | rfl | rfl | rfl | rfl | rfl | rfl | rfl
  all_goals first
    | exact W6_of_ne m ρ c _ (by decide)
    | exact (W6_arr m ρ c 0).trans (((dat1 (V5 m ρ) c).arrAt_in 0 rfl _).trans (A_eq1 (V5 m ρ) c 0))
    | exact (W6_arr m ρ c 1).trans (((dat1 (V5 m ρ) c).arrAt_in 1 rfl _).trans (A_eq1 (V5 m ρ) c 1))

theorem args_keep6 (b : Ref sig .tc) (hb : b ∈ args) :
    W7 m ρ c (Proc.devRef .tc b) = W6 m ρ c (Proc.devRef .tc b) := by
  simp only [args, List.mem_cons, List.mem_nil_iff, or_false] at hb
  rcases hb with rfl | rfl | rfl | rfl | rfl | rfl | rfl | rfl | rfl | rfl | rfl | rfl
  all_goals first
    | exact W7_of_ne m ρ c _ (by decide)
    | exact (W7_arr m ρ c 0).trans (((dat2 (V6 m ρ) c).arrAt_in 0 rfl _).trans (A_eq2 (V6 m ρ) c 0))
    | exact (W7_arr m ρ c 1).trans (((dat2 (V6 m ρ) c).arrAt_in 1 rfl _).trans (A_eq2 (V6 m ρ) c 1))

theorem args_keep7 (b : Ref sig .tc) (hb : b ∈ args) :
    W8 m ρ c (Proc.devRef .tc b) = W7 m ρ c (Proc.devRef .tc b) := by
  simp only [args, List.mem_cons, List.mem_nil_iff, or_false] at hb
  rcases hb with rfl | rfl | rfl | rfl | rfl | rfl | rfl | rfl | rfl | rfl | rfl | rfl
  all_goals keep_host hostOps3

theorem args_keep8 (b : Ref sig .tc) (hb : b ∈ args) :
    W9 m ρ c (Proc.devRef .tc b) = W8 m ρ c (Proc.devRef .tc b) := by
  simp only [args, List.mem_cons, List.mem_nil_iff, or_false] at hb
  rcases hb with rfl | rfl | rfl | rfl | rfl | rfl | rfl | rfl | rfl | rfl | rfl | rfl
  all_goals first
    | exact W9_of_ne m ρ c _ (by decide)
    | exact (W9_arr m ρ c 0).trans (((dat3 (V8 m ρ) c).arrAt_in 0 rfl _).trans (A_eq3 (V8 m ρ) c 0))
    | exact (W9_arr m ρ c 1).trans (((dat3 (V8 m ρ) c).arrAt_in 1 rfl _).trans (A_eq3 (V8 m ρ) c 1))

theorem args_keep9 (b : Ref sig .tc) (hb : b ∈ args) :
    W10 m ρ c (Proc.devRef .tc b) = W9 m ρ c (Proc.devRef .tc b) := by
  simp only [args, List.mem_cons, List.mem_nil_iff, or_false] at hb
  rcases hb with rfl | rfl | rfl | rfl | rfl | rfl | rfl | rfl | rfl | rfl | rfl | rfl
  all_goals first
    | exact W10_of_ne m ρ c _ (by decide)
    | exact (W10_arr m ρ c 0).trans (((dat4 (V9 m ρ) c).arrAt_in 0 rfl _).trans (A_eq4 (V9 m ρ) c 0))
    | exact (W10_arr m ρ c 1).trans (((dat4 (V9 m ρ) c).arrAt_in 1 rfl _).trans (A_eq4 (V9 m ρ) c 1))

theorem args_keep10 (b : Ref sig .tc) (hb : b ∈ args) :
    W11 m ρ c (Proc.devRef .tc b) = W10 m ρ c (Proc.devRef .tc b) := by
  simp only [args, List.mem_cons, List.mem_nil_iff, or_false] at hb
  rcases hb with rfl | rfl | rfl | rfl | rfl | rfl | rfl | rfl | rfl | rfl | rfl | rfl
  all_goals keep_host hostOps5

theorem args_keep11 (b : Ref sig .tc) (hb : b ∈ args) :
    W12 m ρ c (Proc.devRef .tc b) = W11 m ρ c (Proc.devRef .tc b) := by
  simp only [args, List.mem_cons, List.mem_nil_iff, or_false] at hb
  rcases hb with rfl | rfl | rfl | rfl | rfl | rfl | rfl | rfl | rfl | rfl | rfl | rfl
  all_goals first
    | exact W12_of_ne m ρ c _ (by decide)
    | exact (W12_arr m ρ c 0).trans (((dat5 (V11 m ρ) c).arrAt_in 0 rfl _).trans (A_eq5 (V11 m ρ) c 0))
    | exact (W12_arr m ρ c 1).trans (((dat5 (V11 m ρ) c).arrAt_in 1 rfl _).trans (A_eq5 (V11 m ρ) c 1))

theorem args_keep12 (b : Ref sig .tc) (hb : b ∈ args) :
    W13 m ρ c (Proc.devRef .tc b) = W12 m ρ c (Proc.devRef .tc b) := by
  simp only [args, List.mem_cons, List.mem_nil_iff, or_false] at hb
  rcases hb with rfl | rfl | rfl | rfl | rfl | rfl | rfl | rfl | rfl | rfl | rfl | rfl
  all_goals keep_host hostOps6

theorem args_keep13 (b : Ref sig .tc) (hb : b ∈ args) :
    W14 m ρ c (Proc.devRef .tc b) = W13 m ρ c (Proc.devRef .tc b) := by
  simp only [args, List.mem_cons, List.mem_nil_iff, or_false] at hb
  rcases hb with rfl | rfl | rfl | rfl | rfl | rfl | rfl | rfl | rfl | rfl | rfl | rfl
  all_goals first
    | exact W14_of_ne m ρ c _ (by decide)
    | exact (W14_arr m ρ c 0).trans (((dat6 (V13 m ρ) c).arrAt_in 0 rfl _).trans (A_eq6 (V13 m ρ) c 0))
    | exact (W14_arr m ρ c 1).trans (((dat6 (V13 m ρ) c).arrAt_in 1 rfl _).trans (A_eq6 (V13 m ρ) c 1))

theorem args_keep14 (b : Ref sig .tc) (hb : b ∈ args) :
    W15 m ρ c (Proc.devRef .tc b) = W14 m ρ c (Proc.devRef .tc b) := by
  simp only [args, List.mem_cons, List.mem_nil_iff, or_false] at hb
  rcases hb with rfl | rfl | rfl | rfl | rfl | rfl | rfl | rfl | rfl | rfl | rfl | rfl
  all_goals keep_host hostOps7

theorem args_keep15 (b : Ref sig .tc) (hb : b ∈ args) :
    W16 m ρ c (Proc.devRef .tc b) = W15 m ρ c (Proc.devRef .tc b) := by
  simp only [args, List.mem_cons, List.mem_nil_iff, or_false] at hb
  rcases hb with rfl | rfl | rfl | rfl | rfl | rfl | rfl | rfl | rfl | rfl | rfl | rfl
  all_goals first
    | exact W16_of_ne m ρ c _ (by decide)
    | exact (W16_arr m ρ c 0).trans (((dat7 (V15 m ρ) c).arrAt_in 0 rfl _).trans (A_eq7 (V15 m ρ) c 0))
    | exact (W16_arr m ρ c 1).trans (((dat7 (V15 m ρ) c).arrAt_in 1 rfl _).trans (A_eq7 (V15 m ρ) c 1))

/-! ## The argument arrays at each boundary: their launch contents -/

theorem args_at0 (b : Ref sig .tc) (hb : b ∈ args) : W0 m ρ c (Proc.devRef .tc b) = m ((c : Thread nD τ).loc b) := rfl
theorem args_at1 (b : Ref sig .tc) (hb : b ∈ args) : W1 m ρ c (Proc.devRef .tc b) = m ((c : Thread nD τ).loc b) :=
  (args_keep0 m ρ c b hb).trans (args_at0 m ρ c b hb)
theorem args_at2 (b : Ref sig .tc) (hb : b ∈ args) : W2 m ρ c (Proc.devRef .tc b) = m ((c : Thread nD τ).loc b) :=
  (args_keep1 m ρ c b hb).trans (args_at1 m ρ c b hb)
theorem args_at3 (b : Ref sig .tc) (hb : b ∈ args) : W3 m ρ c (Proc.devRef .tc b) = m ((c : Thread nD τ).loc b) :=
  (args_keep2 m ρ c b hb).trans (args_at2 m ρ c b hb)
theorem args_at4 (b : Ref sig .tc) (hb : b ∈ args) : W4 m ρ c (Proc.devRef .tc b) = m ((c : Thread nD τ).loc b) :=
  (args_keep3 m ρ c b hb).trans (args_at3 m ρ c b hb)
theorem args_at5 (b : Ref sig .tc) (hb : b ∈ args) : W5 m ρ c (Proc.devRef .tc b) = m ((c : Thread nD τ).loc b) :=
  (args_keep4 m ρ c b hb).trans (args_at4 m ρ c b hb)
theorem args_at6 (b : Ref sig .tc) (hb : b ∈ args) : W6 m ρ c (Proc.devRef .tc b) = m ((c : Thread nD τ).loc b) :=
  (args_keep5 m ρ c b hb).trans (args_at5 m ρ c b hb)
theorem args_at7 (b : Ref sig .tc) (hb : b ∈ args) : W7 m ρ c (Proc.devRef .tc b) = m ((c : Thread nD τ).loc b) :=
  (args_keep6 m ρ c b hb).trans (args_at6 m ρ c b hb)
theorem args_at8 (b : Ref sig .tc) (hb : b ∈ args) : W8 m ρ c (Proc.devRef .tc b) = m ((c : Thread nD τ).loc b) :=
  (args_keep7 m ρ c b hb).trans (args_at7 m ρ c b hb)
theorem args_at9 (b : Ref sig .tc) (hb : b ∈ args) : W9 m ρ c (Proc.devRef .tc b) = m ((c : Thread nD τ).loc b) :=
  (args_keep8 m ρ c b hb).trans (args_at8 m ρ c b hb)
theorem args_at10 (b : Ref sig .tc) (hb : b ∈ args) : W10 m ρ c (Proc.devRef .tc b) = m ((c : Thread nD τ).loc b) :=
  (args_keep9 m ρ c b hb).trans (args_at9 m ρ c b hb)
theorem args_at11 (b : Ref sig .tc) (hb : b ∈ args) : W11 m ρ c (Proc.devRef .tc b) = m ((c : Thread nD τ).loc b) :=
  (args_keep10 m ρ c b hb).trans (args_at10 m ρ c b hb)
theorem args_at12 (b : Ref sig .tc) (hb : b ∈ args) : W12 m ρ c (Proc.devRef .tc b) = m ((c : Thread nD τ).loc b) :=
  (args_keep11 m ρ c b hb).trans (args_at11 m ρ c b hb)
theorem args_at13 (b : Ref sig .tc) (hb : b ∈ args) : W13 m ρ c (Proc.devRef .tc b) = m ((c : Thread nD τ).loc b) :=
  (args_keep12 m ρ c b hb).trans (args_at12 m ρ c b hb)
theorem args_at14 (b : Ref sig .tc) (hb : b ∈ args) : W14 m ρ c (Proc.devRef .tc b) = m ((c : Thread nD τ).loc b) :=
  (args_keep13 m ρ c b hb).trans (args_at13 m ρ c b hb)
theorem args_at15 (b : Ref sig .tc) (hb : b ∈ args) : W15 m ρ c (Proc.devRef .tc b) = m ((c : Thread nD τ).loc b) :=
  (args_keep14 m ρ c b hb).trans (args_at14 m ρ c b hb)
theorem args_at16 (b : Ref sig .tc) (hb : b ∈ args) : W16 m ρ c (Proc.devRef .tc b) = m ((c : Thread nD τ).loc b) :=
  (args_keep15 m ρ c b hb).trans (args_at15 m ρ c b hb)

/-! ## The sources, targets and weights from the first region's entry on -/

theorem graph_keep3 (b : Ref sig .tc) (hb : b ∈ graph) :
    W4 m ρ c (Proc.devRef .tc b) = W3 m ρ c (Proc.devRef .tc b) := by
  simp only [graph, List.mem_cons, List.mem_nil_iff, or_false] at hb
  rcases hb with rfl | rfl | rfl
  all_goals first
    | exact W4_of_ne m ρ c _ (by decide)
    | exact (W4_arr m ρ c 0).trans (((dat0 (V3 m ρ) c).arrAt_in 0 rfl _).trans (A_eq0 (V3 m ρ) c 0))
    | exact (W4_arr m ρ c 1).trans (((dat0 (V3 m ρ) c).arrAt_in 1 rfl _).trans (A_eq0 (V3 m ρ) c 1))

theorem graph_keep4 (b : Ref sig .tc) (hb : b ∈ graph) :
    W5 m ρ c (Proc.devRef .tc b) = W4 m ρ c (Proc.devRef .tc b) := by
  simp only [graph, List.mem_cons, List.mem_nil_iff, or_false] at hb
  rcases hb with rfl | rfl | rfl
  all_goals keep_host hostOps1

theorem graph_keep5 (b : Ref sig .tc) (hb : b ∈ graph) :
    W6 m ρ c (Proc.devRef .tc b) = W5 m ρ c (Proc.devRef .tc b) := by
  simp only [graph, List.mem_cons, List.mem_nil_iff, or_false] at hb
  rcases hb with rfl | rfl | rfl
  all_goals first
    | exact W6_of_ne m ρ c _ (by decide)
    | exact (W6_arr m ρ c 0).trans (((dat1 (V5 m ρ) c).arrAt_in 0 rfl _).trans (A_eq1 (V5 m ρ) c 0))
    | exact (W6_arr m ρ c 1).trans (((dat1 (V5 m ρ) c).arrAt_in 1 rfl _).trans (A_eq1 (V5 m ρ) c 1))

theorem graph_keep6 (b : Ref sig .tc) (hb : b ∈ graph) :
    W7 m ρ c (Proc.devRef .tc b) = W6 m ρ c (Proc.devRef .tc b) := by
  simp only [graph, List.mem_cons, List.mem_nil_iff, or_false] at hb
  rcases hb with rfl | rfl | rfl
  all_goals first
    | exact W7_of_ne m ρ c _ (by decide)
    | exact (W7_arr m ρ c 0).trans (((dat2 (V6 m ρ) c).arrAt_in 0 rfl _).trans (A_eq2 (V6 m ρ) c 0))
    | exact (W7_arr m ρ c 1).trans (((dat2 (V6 m ρ) c).arrAt_in 1 rfl _).trans (A_eq2 (V6 m ρ) c 1))

theorem graph_keep7 (b : Ref sig .tc) (hb : b ∈ graph) :
    W8 m ρ c (Proc.devRef .tc b) = W7 m ρ c (Proc.devRef .tc b) := by
  simp only [graph, List.mem_cons, List.mem_nil_iff, or_false] at hb
  rcases hb with rfl | rfl | rfl
  all_goals keep_host hostOps3

theorem graph_keep8 (b : Ref sig .tc) (hb : b ∈ graph) :
    W9 m ρ c (Proc.devRef .tc b) = W8 m ρ c (Proc.devRef .tc b) := by
  simp only [graph, List.mem_cons, List.mem_nil_iff, or_false] at hb
  rcases hb with rfl | rfl | rfl
  all_goals first
    | exact W9_of_ne m ρ c _ (by decide)
    | exact (W9_arr m ρ c 0).trans (((dat3 (V8 m ρ) c).arrAt_in 0 rfl _).trans (A_eq3 (V8 m ρ) c 0))
    | exact (W9_arr m ρ c 1).trans (((dat3 (V8 m ρ) c).arrAt_in 1 rfl _).trans (A_eq3 (V8 m ρ) c 1))

theorem graph_keep9 (b : Ref sig .tc) (hb : b ∈ graph) :
    W10 m ρ c (Proc.devRef .tc b) = W9 m ρ c (Proc.devRef .tc b) := by
  simp only [graph, List.mem_cons, List.mem_nil_iff, or_false] at hb
  rcases hb with rfl | rfl | rfl
  all_goals first
    | exact W10_of_ne m ρ c _ (by decide)
    | exact (W10_arr m ρ c 0).trans (((dat4 (V9 m ρ) c).arrAt_in 0 rfl _).trans (A_eq4 (V9 m ρ) c 0))
    | exact (W10_arr m ρ c 1).trans (((dat4 (V9 m ρ) c).arrAt_in 1 rfl _).trans (A_eq4 (V9 m ρ) c 1))

theorem graph_at4 (b : Ref sig .tc) (hb : b ∈ graph) : W4 m ρ c (Proc.devRef .tc b) = W3 m ρ c (Proc.devRef .tc b) :=
  graph_keep3 m ρ c b hb
theorem graph_at5 (b : Ref sig .tc) (hb : b ∈ graph) : W5 m ρ c (Proc.devRef .tc b) = W3 m ρ c (Proc.devRef .tc b) :=
  (graph_keep4 m ρ c b hb).trans (graph_at4 m ρ c b hb)
theorem graph_at6 (b : Ref sig .tc) (hb : b ∈ graph) : W6 m ρ c (Proc.devRef .tc b) = W3 m ρ c (Proc.devRef .tc b) :=
  (graph_keep5 m ρ c b hb).trans (graph_at5 m ρ c b hb)
theorem graph_at7 (b : Ref sig .tc) (hb : b ∈ graph) : W7 m ρ c (Proc.devRef .tc b) = W3 m ρ c (Proc.devRef .tc b) :=
  (graph_keep6 m ρ c b hb).trans (graph_at6 m ρ c b hb)
theorem graph_at8 (b : Ref sig .tc) (hb : b ∈ graph) : W8 m ρ c (Proc.devRef .tc b) = W3 m ρ c (Proc.devRef .tc b) :=
  (graph_keep7 m ρ c b hb).trans (graph_at7 m ρ c b hb)
theorem graph_at9 (b : Ref sig .tc) (hb : b ∈ graph) : W9 m ρ c (Proc.devRef .tc b) = W3 m ρ c (Proc.devRef .tc b) :=
  (graph_keep8 m ρ c b hb).trans (graph_at8 m ρ c b hb)
theorem graph_at10 (b : Ref sig .tc) (hb : b ∈ graph) : W10 m ρ c (Proc.devRef .tc b) = W3 m ρ c (Proc.devRef .tc b) :=
  (graph_keep9 m ρ c b hb).trans (graph_at9 m ρ c b hb)

end Cert.KernelIdeal.Walk

end
-- ==== Proof.LibHostRead.lean ====
/-
  Small layout operations of a host program, read at an index, generic in the sizes.

  * A vector `[a]` broadcast to a column `[a, 1]` reads the vector at the row (`bcastCol_apply`); a scalar broadcast
    to any shape reads the scalar (`bcastScalar_apply`); a vector `[b]` broadcast to a row `[1, b]` and then to
    `[a, b]` reads the vector at the column (`bcastRow_apply`).
  * Row `r` of a two-row array `[2, E]`, sliced out as `[1, E]` and reshaped to `[E]`, reads the array at `(r, e)`
    (`rowSlice_apply`).
  * The plain product of an `A × K` by a `K × B` matrix over the extended reals, read at `(i, j)`, is the sum over
    the contracted coordinate of the products of the entries: for the host's product (`plainDot_apply`) and for the
    kernel's product accumulated into a zero constant (`plainMatmul_zero_apply`).
-/
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

open scoped BigOperators

namespace Cert.LibHR

open Idealize.ShloMosaic Idealize.ShloMosaic.ValueIdx

/-! ## Broadcasts -/

/-- A vector broadcast to a one-column matrix reads the vector at the row. -/
theorem bcastCol_apply {α : Type} {a : Nat} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) :=
  broadcastInDim_apply _ h x (ix2 i u) (ix1 i) (fun b => match b with
    | ⟨0, _⟩ => by
      show i.val = if a = 1 then 0 else i.val
      split
      · have := i.isLt; omega
      · rfl)

/-- A scalar broadcast to any shape reads the scalar. -/
theorem bcastScalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun b => b.elim0)

/-- A vector broadcast to a one-row matrix and then down the rows reads the vector at the column. -/
theorem bcastRow_apply {α : Type} {a b : Nat} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (i : Fin a) (j : Fin b) :
    broadcastInDim ⟨2, ![a, b]⟩ ![0, 1] h2 (broadcastInDim ⟨2, ![1, b]⟩ ![1] h1 x) (ix2 i j) = x (ix1 j) := by
  refine (broadcastInDim_apply _ h2 _ (ix2 i j) (ix2 (0 : Fin 1) j) (fun c => match c with
    | ⟨0, _⟩ => by
      show 0 = if (1 : Nat) = 1 then 0 else i.val
      rw [if_pos rfl]
    | ⟨1, _⟩ => by
      show j.val = if b = 1 then 0 else j.val
      split
      · have := j.isLt; omega
      · rfl)).trans ?_
  exact broadcastInDim_apply _ h1 x (ix2 (0 : Fin 1) j) (ix1 j) (fun c => match c with
    | ⟨0, _⟩ => by
      show j.val = if b = 1 then 0 else j.val
      split
      · have := j.isLt; omega
      · rfl)

/-! ## One row of a two-row array -/

/-- Row `r` of a `[2, E]` array, sliced out and reshaped to `[E]`, reads the array at `(r, e)`. -/
theorem rowSlice_apply {α : Type} {E : Nat} (r : Fin 2) (x : (⟨2, ![2, E]⟩ : Shape).Idx → α)
    (hs : (⟨2, ![2, E]⟩ : Shape).Slices ![r.val, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![r.val, 0] x hs) hc (ix1 e) = x (ix2 r e) := by
  refine (shapeCast_apply _ hc (ix1 e) (ix2 (0 : Fin 1) e) (by
    rw [Shape.rowMajor_val_two, Shape.rowMajor_val_one]
    show 0 * E + e.val = e.val
    omega)).trans ?_
  exact extractStridedSlice_apply ![r.val, 0] x hs (ix2 (0 : Fin 1) e) (ix2 r e) (fun c => match c with
    | ⟨0, _⟩ => by show r.val = r.val + 0; omega
    | ⟨1, _⟩ => by show e.val = 0 + e.val; omega)

/-! ## A plain matrix product -/

/-- The dimension numbers of the plain product of an `A × K` by a `K × B` matrix: the left operand's columns
    contracted with the right operand's rows, no batch axes. -/
abbrev plainDotDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- They are the library's plain dimension numbers. -/
theorem plainDotDims_eq (A K B : Nat)
    (wf : DotDims.WF ⟨2, ![A, K]⟩ ⟨2, ![K, B]⟩ ⟨2, ![A, B]⟩ [1] [0] [0] [1] [] []) :
    plainDotDims A K B wf = DotDims.plain A K B := rfl

/-- THE HOST'S PLAIN PRODUCT READ AT `(i, j)`, over the extended reals: the sum over the contracted coordinate of
    the products of the entries. -/
theorem plainDot_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    Host.dotGeneral (F := Ideal) (φ₁ := φ₁) (φ₂ := φ₂) (plainDotDims A K B wf) none l r (ix2 i j)
      = ∑ k : Fin K, l (ix2 i k) * r (ix2 k j) :=
  StackMember.dotGeneral_plain_apply (φ₁ := φ₁) (φ₂ := φ₂) none l r i j

/-- THE KERNEL'S PLAIN PRODUCT INTO A ZERO ACCUMULATOR READ AT `(i, j)`, over the extended reals: the same sum. -/
theorem plainMatmul_zero_apply {φ₁ φ₂ : FTy} (A K B : Nat)
    (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (i : Fin A) (j : Fin B) :
    FloatOps.matmul (F := Ideal) (φ₁ := φ₁) (φ₂ := φ₂) (plainDotDims A K B wf) none l r
        (constant (F := Ideal) ⟨2, ![A, B]⟩ .f32 0x00000000#32) (ix2 i j)
      = ∑ k : Fin K, l (ix2 i k) * r (ix2 k j) := by
  rw [Ideal.matmul_constant_zero_apply, ← Ideal.dotGeneral_apply (plainDotDims A K B wf) none .single l r (ix2 i j)]
  exact plainDot_apply (φ₁ := φ₁) (φ₂ := φ₂) A K B wf l r i j

end Cert.LibHR

end
-- ==== Proof.Region0.lean ====
/-
  Region 0: the first projection. Each of the 20 grid points multiplies a block of 5000 rows of the node features
  (100000 × 3) by the whole 3 × 64 weight and writes the 5000 × 64 block of products; the blocks tile the output, so
  after the region the output array is the plain matrix product of the two entry arrays, entry by entry a sum over the
  contracted coordinate.
-/
import proofs.«170732_j32890859553003_1_alg».proof.Proof.Gen.KernelIdeal.Frame
import proofs.«170732_j32890859553003_1_alg».proof.Proof.LibHostRead
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.SL.Sem Cert.LibHR

variable (V : (c : Dev nD) → (b : Ref sig .tc) → Buf (Elt Ideal) ((c : Thread nD τ).loc b))

theorem zero_offsets : (![0, 0] : Fin 2 → Nat) = fun _ => 0 := funext fun a => by fin_cases a <;> rfl

/-- The body's product of a 5000 × 3 block by the 3 × 64 weight, read at (p, q): the sum over the 3 features. The
    change of float format before the product is the identity on the extended reals. -/
theorem body_apply (x0 : Vec Ideal S5000x3 .f32) (x1 : Vec Ideal S3x64 .f32) (p : Fin 5000) (q : Fin 64) :
    k0_pay1 (F := Ideal) x0 x1 (ix2 p q) = ∑ k : Fin 3, x0 (ix2 p k) * x1 (ix2 k q) :=
  plainMatmul_zero_apply (φ₁ := .bf16) (φ₂ := .bf16) 5000 3 64 dot_S5000x3_S3x64_S5000x64_1_0_0_1_n_n.wf x0 x1 p q

/-- The block index maps over the grid: row block `t` of the features and of the output, the whole weight. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The product of the whole arrays. -/
abbrev product (wf : DotDims.WF ⟨2, ![100000, 3]⟩ ⟨2, ![3, 64]⟩ ⟨2, ![100000, 64]⟩ [1] [0] [0] [1] [] [])
    (x : S100000x3.Idx → EReal) (w : S3x64.Idx → EReal) : S100000x64.Idx → EReal :=
  Host.dotGeneral (F := Ideal) (φ₁ := .f32) (φ₂ := .f32) (plainDotDims 100000 3 64 wf) none x w

variable (wf : DotDims.WF ⟨2, ![100000, 3]⟩ ⟨2, ![3, 64]⟩ ⟨2, ![100000, 64]⟩ [1] [0] [0] [1] [] [])

/-- One entry of a written block against the product of the whole arrays, over plain blocks and arrays: when the
    feature block `x0` is rows `T·5000 …` of `X` and the weight block is `Wt`, entry `y` of the body's product is
    entry `i` of `X · Wt`, for `i` the array index of `y` in row block `T`. -/
theorem point_eq (x0 : Vec Ideal S5000x3 .f32) (x1 : Vec Ideal S3x64 .f32) (X : S100000x3.Idx → EReal) (Wt : S3x64.Idx → EReal)
    (T : ℕ) (y : S5000x64.Idx) (i : S100000x64.Idx)
    (hx0 : ∀ (p : Fin 5000) (k : Fin 3) (P : Fin 100000), P.val = T * 5000 + p.val → x0 (ix2 p k) = X (ix2 P k))
    (hx1 : ∀ (k : Fin 3) (q : Fin 64), x1 (ix2 k q) = Wt (ix2 k q))
    (hi0 : (i 0).val = T * 5000 + (y 0).val) (hi1 : (i 1).val = (y 1).val) :
    k0_pay1 (F := Ideal) x0 x1 y = product wf X Wt i := by
  obtain ⟨p, q, rfl⟩ : ∃ (p : Fin 5000) (q : Fin 64), y = ix2 p q := ⟨y 0, y 1, eq_ix2 y⟩
  obtain ⟨P, Q, rfl⟩ : ∃ (P : Fin 100000) (Q : Fin 64), i = ix2 P Q := ⟨i 0, i 1, eq_ix2 i⟩
  have hP : P.val = T * 5000 + p.val := hi0
  obtain rfl : Q = q := Fin.ext hi1
  rw [body_apply]
  refine Eq.trans ?_ (plainDot_apply (φ₁ := .f32) (φ₂ := .f32) 100000 3 64 wf X Wt P Q).symm
  exact Finset.sum_congr rfl fun k _ => by rw [hx0 p k P hP, hx1 k Q]

/-- Entry (p, k) of row block `t` of the features is entry (5000 t + p, k) of the array. -/
theorem read_features (c : Dev nD) (t : Fin cfg0.N) (p : Fin 5000) (k : Fin 3) (P : Fin 100000)
    (hP : P.val = t.val * 5000 + p.val) : iblk0 V c 0 t (ix2 p k) = V c main_arg0 (ix2 P k) := by
  obtain ⟨e0, e1, -⟩ := index_maps t
  show V c main_arg0 (((cfg0.win 0).blk t).view.emb (ix2 p k)) = V c main_arg0 (ix2 P k)
  refine congrArg (V c main_arg0) (funext fun a => Fin.ext ?_)
  match a with
  | ⟨0, _⟩ => show win0_0.index t (0 : Fin 2) * 5000 + 1 * p.val = P.val; omega
  | ⟨1, _⟩ => show win0_0.index t (1 : Fin 2) * 3 + 1 * k.val = k.val; omega

/-- The weight's one block is the whole weight. -/
theorem read_weight (c : Dev nD) (t : Fin cfg0.N) (k : Fin 3) (q : Fin 64) :
    iblk0 V c 1 t (ix2 k q) = V c main_arg2 (ix2 k q) := by
  obtain ⟨-, -, e2, e3, -⟩ := index_maps t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 3 + 1 * k.val = k.val; omega
  | ⟨1, _⟩ => show win0_1.index t (1 : Fin 2) * 64 + 1 * q.val = q.val; omega

/-- What grid point `t` writes back is block `t` of the product of the entry arrays. -/
theorem flushed_eq (c : Dev nD) (t : Fin cfg0.N) :
    (dat0 V c).flushed 2 t = ((cfg0.win 2).blk t).view.read (Elt Ideal) (product wf (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x3) zero_offsets, View.ld_unit_zero (S := S3x64) zero_offsets]
  obtain ⟨-, -, -, -, e4, e5⟩ := index_maps t
  funext j
  show k0_pay1 (F := Ideal) (iblk0 V c 0 t) (iblk0 V c 1 t) j
    = product wf (V c main_arg0) (V c main_arg2) (((cfg0.win 2).blk t).view.emb j)
  exact point_eq wf (iblk0 V c 0 t) (iblk0 V c 1 t) (V c main_arg0) (V c main_arg2) t.val j (((cfg0.win 2).blk t).view.emb j)
    (fun p k P hP => read_features V c t p k P hP) (fun k q => read_weight V c t k q)
    (by show win0_2.index t (0 : Fin 2) * 5000 + 1 * (j 0).val = t.val * 5000 + (j 0).val; omega)
    (by show win0_2.index t (1 : Fin 2) * 64 + 1 * (j 1).val = (j 1).val; omega)

/-- An index of the output is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v30).slice (win0_2.rect t)).set ↔ _
  rw [View.set_slice_whole, Rect.mem_set_unit]
  exact Iff.rfl

/-- The 20 row blocks tile the output: row r lies in block r / 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 5000 < cfg0.N := by rw [show cfg0.N = 20 from N_0]; omega
  obtain ⟨-, -, -, -, e4, e5⟩ := index_maps ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 64 ≤ (i 1).val
      ∧ (i 1).val < win0_2.index ⟨(i 0).val / 5000, ht⟩ (1 : Fin 2) * 64 + 64
    rw [e5]; omega

/-- THE REGION'S VALUE: after the region the output array is the product of the two arrays the region found. -/
theorem value (c : Dev nD) :
    (dat0 V c).arrAt 2 cfg0.N = product wf (V c main_arg0) (V c main_arg2) :=
  (dat0 V c).arrAt_eq_of_cover 2 (product wf (V c main_arg0) (V c main_arg2)) (fun t _ => flushed_eq V wf c t) cover

end Cert.KernelIdeal.Region0

end
-- ==== Proof.Region1.lean ====
/-
  Region 1: bias and max(0, ·) after the first aggregation. Each of the 20 grid points adds the 64-entry bias (held as a
  1 × 64 array) to every row of a block of 5000 rows and takes the maximum with 0; the blocks tile the output, so after
  the region the output array is max(0, a + b) of the entry array `a` and the bias `b` repeated down the rows.
-/
import proofs.«170732_j32890859553003_1_alg».proof.Proof.Gen.KernelIdeal.Frame
import proofs.«170732_j32890859553003_1_alg».proof.Proof.LibHostRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem Cert.LibHR

variable (V : (c : Dev nD) → (b : Ref sig .tc) → Buf (Elt Ideal) ((c : Thread nD τ).loc b))

theorem zero_offsets : (![0, 0] : Fin 2 → Nat) = fun _ => 0 := funext fun a => by fin_cases a <;> rfl

/-- The body at (p, q): the block's entry plus the bias row's entry of that column, then the maximum with 0. The body's
    casts of the blocks to their own shapes are the identity. -/
theorem body_apply (x0 : Vec Ideal S5000x64 .f32) (x1 : Vec Ideal S1x64 .f32) (p : Fin 5000) (q : Fin 64) :
    k1_pay1 (F := Ideal) x0 x1 (ix2 p q)
      = max (x0 (ix2 p q) + x1 (ix2 (0 : Fin 1) q)) (Scalar.ofBits (F := Ideal) .f32 0x00000000#32) := by
  show max (shapeCast S5000x64 x0 shapeCasts_S5000x64_S5000x64 (ix2 p q)
      + broadcastTo S5000x64 (shapeCast S1x64 x1 shapeCasts_S1x64_S1x64) broadcasts_S1x64_S5000x64 (ix2 p q)) _ = _
  rw [shapeCast_self, shapeCast_self, broadcastTo_1b_ab_apply]
  rfl

/-- The block index maps over the grid: row block `t` of the input and of the output, the whole bias row. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- max(0, a + b) of whole arrays, the bias repeated down the rows, in the host's operations. -/
abbrev biasRelu (h1 : (⟨1, ![64]⟩ : Shape).BroadcastsInDim ⟨2, ![1, 64]⟩ ![1])
    (h2 : (⟨2, ![1, 64]⟩ : Shape).BroadcastsInDim ⟨2, ![100000, 64]⟩ ![0, 1])
    (h0 : (⟨0, ![]⟩ : Shape).BroadcastsInDim ⟨2, ![100000, 64]⟩ ![])
    (a : S100000x64.Idx → EReal) (b : S64.Idx → EReal) : S100000x64.Idx → EReal :=
  maximumf (F := Ideal) (φ := .f32)
    (addf (F := Ideal) (φ := .f32) a (broadcastInDim ⟨2, ![100000, 64]⟩ ![0, 1] h2 (broadcastInDim ⟨2, ![1, 64]⟩ ![1] h1 b)))
    (broadcastInDim ⟨2, ![100000, 64]⟩ ![] h0 (constant (F := Ideal) S_ .f32 0x00000000#32))

variable (h1 : (⟨1, ![64]⟩ : Shape).BroadcastsInDim ⟨2, ![1, 64]⟩ ![1])
  (h2 : (⟨2, ![1, 64]⟩ : Shape).BroadcastsInDim ⟨2, ![100000, 64]⟩ ![0, 1])
  (h0 : (⟨0, ![]⟩ : Shape).BroadcastsInDim ⟨2, ![100000, 64]⟩ ![])

/-- The whole-array form at (P, q). -/
theorem biasRelu_apply (a : S100000x64.Idx → EReal) (b : S64.Idx → EReal) (P : Fin 100000) (q : Fin 64) :
    biasRelu h1 h2 h0 a b (ix2 P q) = max (a (ix2 P q) + b (ix1 q)) (Scalar.ofBits (F := Ideal) .f32 0x00000000#32) := by
  show max (a (ix2 P q) + broadcastInDim ⟨2, ![100000, 64]⟩ ![0, 1] h2 (broadcastInDim ⟨2, ![1, 64]⟩ ![1] h1 b) (ix2 P q))
      (broadcastInDim ⟨2, ![100000, 64]⟩ ![] h0 (constant (F := Ideal) S_ .f32 0x00000000#32) (ix2 P q)) = _
  rw [bcastRow_apply, bcastScalar_apply]
  rfl

/-- One entry of a written block against the whole-array form, over plain blocks and arrays. -/
theorem point_eq (x0 : Vec Ideal S5000x64 .f32) (x1 : Vec Ideal S1x64 .f32) (A : S100000x64.Idx → EReal) (b : S64.Idx → EReal)
    (T : ℕ) (y : S5000x64.Idx) (i : S100000x64.Idx)
    (hx0 : ∀ (p : Fin 5000) (q : Fin 64) (P : Fin 100000), P.val = T * 5000 + p.val → x0 (ix2 p q) = A (ix2 P q))
    (hx1 : ∀ q : Fin 64, x1 (ix2 (0 : Fin 1) q) = b (ix1 q))
    (hi0 : (i 0).val = T * 5000 + (y 0).val) (hi1 : (i 1).val = (y 1).val) :
    k1_pay1 (F := Ideal) x0 x1 y = biasRelu h1 h2 h0 A b i := by
  obtain ⟨p, q, rfl⟩ : ∃ (p : Fin 5000) (q : Fin 64), y = ix2 p q := ⟨y 0, y 1, eq_ix2 y⟩
  obtain ⟨P, Q, rfl⟩ : ∃ (P : Fin 100000) (Q : Fin 64), i = ix2 P Q := ⟨i 0, i 1, eq_ix2 i⟩
  have hP : P.val = T * 5000 + p.val := hi0
  obtain rfl : Q = q := Fin.ext hi1
  rw [body_apply, biasRelu_apply, hx0 p Q P hP, hx1 Q]

/-- Entry (p, q) of row block `t` of the input is entry (5000 t + p, q) of the array. -/
theorem read_input (c : Dev nD) (t : Fin cfg1.N) (p : Fin 5000) (q : Fin 64) (P : Fin 100000)
    (hP : P.val = t.val * 5000 + p.val) : iblk1 V c 0 t (ix2 p q) = V c main_v43 (ix2 P q) := by
  obtain ⟨e0, e1, -⟩ := index_maps t
  show V c main_v43 (((cfg1.win 0).blk t).view.emb (ix2 p q)) = V c main_v43 (ix2 P q)
  refine congrArg (V c main_v43) (funext fun a => Fin.ext ?_)
  match a with
  | ⟨0, _⟩ => show win1_0.index t (0 : Fin 2) * 5000 + 1 * p.val = P.val; omega
  | ⟨1, _⟩ => show win1_0.index t (1 : Fin 2) * 64 + 1 * q.val = q.val; omega

/-- The bias window's one block is the whole 1 × 64 array, which holds the bias vector cast to one row. -/
theorem read_bias (c : Dev nD) (t : Fin cfg1.N) (b : S64.Idx → EReal) (hc : S64.ShapeCasts S1x64)
    (hb : (V c main_v44 : S1x64.Idx → EReal) = shapeCast S1x64 b hc) (q : Fin 64) :
    iblk1 V c 1 t (ix2 (0 : Fin 1) q) = b (ix1 q) := by
  obtain ⟨-, -, e2, e3, -⟩ := index_maps t
  have e : iblk1 V c 1 t (ix2 (0 : Fin 1) q) = V c main_v44 (ix2 (0 : Fin 1) q) := by
    show V c main_v44 (((cfg1.win 1).blk t).view.emb (ix2 (0 : Fin 1) q)) = V c main_v44 (ix2 (0 : Fin 1) q)
    refine congrArg (V c main_v44) (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega
  rw [e, hb]
  exact shapeCast_a_1a_apply b hc 0 q

/-- What grid point `t` writes back is block `t` of the whole-array form of the entry arrays. -/
theorem flushed_eq (c : Dev nD) (b : S64.Idx → EReal) (hc : S64.ShapeCasts S1x64)
    (hb : (V c main_v44 : S1x64.Idx → EReal) = shapeCast S1x64 b hc) (t : Fin cfg1.N) :
    (dat1 V c).flushed 2 t = ((cfg1.win 2).blk t).view.read (Elt Ideal) (biasRelu h1 h2 h0 (V c main_v43) b) := by
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S1x64) zero_offsets]
  obtain ⟨-, -, -, -, e4, e5⟩ := index_maps t
  funext j
  show k1_pay1 (F := Ideal) (iblk1 V c 0 t) (iblk1 V c 1 t) j
    = biasRelu h1 h2 h0 (V c main_v43) b (((cfg1.win 2).blk t).view.emb j)
  exact point_eq h1 h2 h0 (iblk1 V c 0 t) (iblk1 V c 1 t) (V c main_v43) b t.val j (((cfg1.win 2).blk t).view.emb j)
    (fun p q P hP => read_input V c t p q P hP) (fun q => read_bias V c t b hc hb q)
    (by show win1_2.index t (0 : Fin 2) * 5000 + 1 * (j 0).val = t.val * 5000 + (j 0).val; omega)
    (by show win1_2.index t (1 : Fin 2) * 64 + 1 * (j 1).val = (j 1).val; omega)

/-- An index of the output is in point `t`'s block iff each coordinate is in the block's range on its axis. -/
theorem mem_block (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v45).slice (win1_2.rect t)).set ↔ _
  rw [View.set_slice_whole, Rect.mem_set_unit]
  exact Iff.rfl

/-- The 20 row blocks tile the output: row r lies in block r / 5000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have ht : (i 0).val / 5000 < cfg1.N := by rw [show cfg1.N = 20 from N_1]; omega
  obtain ⟨-, -, -, -, e4, e5⟩ := index_maps ⟨(i 0).val / 5000, ht⟩
  refine ⟨⟨(i 0).val / 5000, ht⟩, flush1_2 _, ?_⟩
  rw [mem_block]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    rw [e5]; omega

/-- THE REGION'S VALUE: after the region the output array is max(0, a + b) of the entry array and the bias vector. -/
theorem value (c : Dev nD) (b : S64.Idx → EReal) (hc : S64.ShapeCasts S1x64)
    (hb : (V c main_v44 : S1x64.Idx → EReal) = shapeCast S1x64 b hc) :
    (dat1 V c).arrAt 2 cfg1.N = biasRelu h1 h2 h0 (V c main_v43) b :=
  (dat1 V c).arrAt_eq_of_cover 2 (biasRelu h1 h2 h0 (V c main_v43) b) (fun t _ => flushed_eq V h1 h2 h0 c b hc hb t) cover

end Cert.KernelIdeal.Region1

end
-- ==== Proof.Region2.lean ====
/-
  Region 2: the second projection. Each of the 20 grid points multiplies a block of 5000 rows of the
  features (100000 × 64) by the whole 64 × 128 weight and writes the 5000 × 128 block of products; the blocks tile the
  output, so after the region the output array is the plain matrix product of the two entry arrays, entry by entry a
  sum over the contracted coordinate.
-/
import proofs.«170732_j32890859553003_1_alg».proof.Proof.Gen.KernelIdeal.Frame
import proofs.«170732_j32890859553003_1_alg».proof.Proof.LibHostRead
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.SL.Sem Cert.LibHR

variable (V : (c : Dev nD) → (b : Ref sig .tc) → Buf (Elt Ideal) ((c : Thread nD τ).loc b))

theorem zero_offsets : (![0, 0] : Fin 2 → Nat) = fun _ => 0 := funext fun a => by fin_cases a <;> rfl

/-- The body's product of a 5000 × 64 block by the 64 × 128 weight, read at (p, q): the sum over the 64 features. The
    change of float format before the product, and the body's cast of the block to its own shape, are the identity. -/
theorem body_apply (x0 : Vec Ideal S5000x64 .f32) (x1 : Vec Ideal S64x128 .f32) (p : Fin 5000) (q : Fin 128) :
    k2_pay1 (F := Ideal) x0 x1 (ix2 p q) = ∑ k : Fin 64, x0 (ix2 p k) * x1 (ix2 k q) := by
  show FloatOps.matmul (F := Ideal) (φ₁ := .bf16) (φ₂ := .bf16) (plainDotDims 5000 64 128 dot_S5000x64_S64x128_S5000x128_1_0_0_1_n_n.wf) none
      (shapeCast S5000x64 x0 shapeCasts_S5000x64_S5000x64) x1 (constant (F := Ideal) ⟨2, ![5000, 128]⟩ .f32 0x00000000#32) (ix2 p q) = _
  rw [shapeCast_self]
  exact plainMatmul_zero_apply (φ₁ := .bf16) (φ₂ := .bf16) 5000 64 128 dot_S5000x64_S64x128_S5000x128_1_0_0_1_n_n.wf x0 x1 p q

/-- The block index maps over the grid: row block `t` of the features and of the output, the whole weight. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The product of the whole arrays. -/
abbrev product (wf : DotDims.WF ⟨2, ![100000, 64]⟩ ⟨2, ![64, 128]⟩ ⟨2, ![100000, 128]⟩ [1] [0] [0] [1] [] [])
    (x : S100000x64.Idx → EReal) (w : S64x128.Idx → EReal) : S100000x128.Idx → EReal :=
  Host.dotGeneral (F := Ideal) (φ₁ := .f32) (φ₂ := .f32) (plainDotDims 100000 64 128 wf) none x w

variable (wf : DotDims.WF ⟨2, ![100000, 64]⟩ ⟨2, ![64, 128]⟩ ⟨2, ![100000, 128]⟩ [1] [0] [0] [1] [] [])

/-- One entry of a written block against the product of the whole arrays, over plain blocks and arrays: when the
    feature block `x0` is rows `T·5000 …` of `X` and the weight block is `Wt`, entry `y` of the body's product is
    entry `i` of `X · Wt`, for `i` the array index of `y` in row block `T`. -/
theorem point_eq (x0 : Vec Ideal S5000x64 .f32) (x1 : Vec Ideal S64x128 .f32) (X : S100000x64.Idx → EReal) (Wt : S64x128.Idx → EReal)
    (T : ℕ) (y : S5000x128.Idx) (i : S100000x128.Idx)
    (hx0 : ∀ (p : Fin 5000) (k : Fin 64) (P : Fin 100000), P.val = T * 5000 + p.val → x0 (ix2 p k) = X (ix2 P k))
    (hx1 : ∀ (k : Fin 64) (q : Fin 128), x1 (ix2 k q) = Wt (ix2 k q))
    (hi0 : (i 0).val = T * 5000 + (y 0).val) (hi1 : (i 1).val = (y 1).val) :
    k2_pay1 (F := Ideal) x0 x1 y = product wf X Wt i := by
  obtain ⟨p, q, rfl⟩ : ∃ (p : Fin 5000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hP : P.val = T * 5000 + p.val := hi0
  obtain rfl : Q = q := Fin.ext hi1
  rw [body_apply]
  refine Eq.trans ?_ (plainDot_apply (φ₁ := .f32) (φ₂ := .f32) 100000 64 128 wf X Wt P Q).symm
  exact Finset.sum_congr rfl fun k _ => by rw [hx0 p k P hP, hx1 k Q]

/-- Entry (p, k) of row block `t` of the features is entry (5000 t + p, k) of the array. -/
theorem read_features (c : Dev nD) (t : Fin cfg2.N) (p : Fin 5000) (k : Fin 64) (P : Fin 100000)
    (hP : P.val = t.val * 5000 + p.val) : iblk2 V c 0 t (ix2 p k) = V c main_v45 (ix2 P k) := by
  obtain ⟨e0, e1, -⟩ := index_maps t
  show V c main_v45 (((cfg2.win 0).blk t).view.emb (ix2 p k)) = V c main_v45 (ix2 P k)
  refine congrArg (V c main_v45) (funext fun a => Fin.ext ?_)
  match a with
  | ⟨0, _⟩ => show win2_0.index t (0 : Fin 2) * 5000 + 1 * p.val = P.val; omega
  | ⟨1, _⟩ => show win2_0.index t (1 : Fin 2) * 64 + 1 * k.val = k.val; omega

/-- The weight's one block is the whole weight. -/
theorem read_weight (c : Dev nD) (t : Fin cfg2.N) (k : Fin 64) (q : Fin 128) :
    iblk2 V c 1 t (ix2 k q) = V c main_arg4 (ix2 k q) := by
  obtain ⟨-, -, e2, e3, -⟩ := index_maps t
  show V c main_arg4 (((cfg2.win 1).blk t).view.emb (ix2 k q)) = V c main_arg4 (ix2 k q)
  refine congrArg (V c main_arg4) (funext fun a => Fin.ext ?_)
  match a with
  | ⟨0, _⟩ => show win2_1.index t (0 : Fin 2) * 64 + 1 * k.val = k.val; omega
  | ⟨1, _⟩ => show win2_1.index t (1 : Fin 2) * 128 + 1 * q.val = q.val; omega

/-- What grid point `t` writes back is block `t` of the product of the entry arrays. -/
theorem flushed_eq (c : Dev nD) (t : Fin cfg2.N) :
    (dat2 V c).flushed 2 t = ((cfg2.win 2).blk t).view.read (Elt Ideal) (product wf (V c main_v45) (V c main_arg4)) := by
  show (cfg2.win 2).cut (grid2.coords t) ((dat2 V c).after 2 t) = _
  rw [after2_2]
  unfold out2_2
  rw [View.canon_unit_zero zero_offsets]
  simp only [View.ld_unit_zero (S := S5000x64) zero_offsets, View.ld_unit_zero (S := S64x128) zero_offsets]
  obtain ⟨-, -, -, -, e4, e5⟩ := index_maps t
  funext j
  show k2_pay1 (F := Ideal) (iblk2 V c 0 t) (iblk2 V c 1 t) j
    = product wf (V c main_v45) (V c main_arg4) (((cfg2.win 2).blk t).view.emb j)
  exact point_eq wf (iblk2 V c 0 t) (iblk2 V c 1 t) (V c main_v45) (V c main_arg4) t.val j (((cfg2.win 2).blk t).view.emb j)
    (fun p k P hP => read_features V c t p k P hP) (fun k q => read_weight V c t k q)
    (by show win2_2.index t (0 : Fin 2) * 5000 + 1 * (j 0).val = t.val * 5000 + (j 0).val; omega)
    (by show win2_2.index t (1 : Fin 2) * 128 + 1 * (j 1).val = (j 1).val; omega)

/-- An index of the output is in point `t`'s block iff each coordinate is in the block's range on its axis. -/
theorem mem_block (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v46).slice (win2_2.rect t)).set ↔ _
  rw [View.set_slice_whole, Rect.mem_set_unit]
  exact Iff.rfl

/-- The 20 row blocks tile the output: row r lies in block r / 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have ht : (i 0).val / 5000 < cfg2.N := by rw [show cfg2.N = 20 from N_2]; omega
  obtain ⟨-, -, -, -, e4, e5⟩ := index_maps ⟨(i 0).val / 5000, ht⟩
  refine ⟨⟨(i 0).val / 5000, ht⟩, flush2_2 _, ?_⟩
  rw [mem_block]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val
      ∧ (i 1).val < win2_2.index ⟨(i 0).val / 5000, ht⟩ (1 : Fin 2) * 128 + 128
    rw [e5]; omega

/-- THE REGION'S VALUE: after the region the output array is the product of the two arrays the region found. -/
theorem value (c : Dev nD) :
    (dat2 V c).arrAt 2 cfg2.N = product wf (V c main_v45) (V c main_arg4) :=
  (dat2 V c).arrAt_eq_of_cover 2 (product wf (V c main_v45) (V c main_arg4)) (fun t _ => flushed_eq V wf c t) cover

end Cert.KernelIdeal.Region2

end
-- ==== Proof.Region3.lean ====
/-
  Region 3: bias and max(0, ·) after the second aggregation. Each of the 20 grid points adds the 128-entry bias (held as a
  1 × 128 array) to every row of a block of 5000 rows and takes the maximum with 0; the blocks tile the output, so after
  the region the output array is max(0, a + b) of the entry array `a` and the bias `b` repeated down the rows.
-/
import proofs.«170732_j32890859553003_1_alg».proof.Proof.Gen.KernelIdeal.Frame
import proofs.«170732_j32890859553003_1_alg».proof.Proof.LibHostRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx
open Idealize.SL.Sem Cert.LibHR

variable (V : (c : Dev nD) → (b : Ref sig .tc) → Buf (Elt Ideal) ((c : Thread nD τ).loc b))

theorem zero_offsets : (![0, 0] : Fin 2 → Nat) = fun _ => 0 := funext fun a => by fin_cases a <;> rfl

/-- The body at (p, q): the block's entry plus the bias row's entry of that column, then the maximum with 0. The body's
    casts of the blocks to their own shapes are the identity. -/
theorem body_apply (x0 : Vec Ideal S5000x128 .f32) (x1 : Vec Ideal S1x128 .f32) (p : Fin 5000) (q : Fin 128) :
    k3_pay1 (F := Ideal) x0 x1 (ix2 p q)
      = max (x0 (ix2 p q) + x1 (ix2 (0 : Fin 1) q)) (Scalar.ofBits (F := Ideal) .f32 0x00000000#32) := by
  show max (shapeCast S5000x128 x0 shapeCasts_S5000x128_S5000x128 (ix2 p q)
      + broadcastTo S5000x128 (shapeCast S1x128 x1 shapeCasts_S1x128_S1x128) broadcasts_S1x128_S5000x128 (ix2 p q)) _ = _
  rw [shapeCast_self, shapeCast_self, broadcastTo_1b_ab_apply]
  rfl

/-- The block index maps over the grid: row block `t` of the input and of the output, the whole bias row. -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- max(0, a + b) of whole arrays, the bias repeated down the rows, in the host's operations. -/
abbrev biasRelu (h1 : (⟨1, ![128]⟩ : Shape).BroadcastsInDim ⟨2, ![1, 128]⟩ ![1])
    (h2 : (⟨2, ![1, 128]⟩ : Shape).BroadcastsInDim ⟨2, ![100000, 128]⟩ ![0, 1])
    (h0 : (⟨0, ![]⟩ : Shape).BroadcastsInDim ⟨2, ![100000, 128]⟩ ![])
    (a : S100000x128.Idx → EReal) (b : S128.Idx → EReal) : S100000x128.Idx → EReal :=
  maximumf (F := Ideal) (φ := .f32)
    (addf (F := Ideal) (φ := .f32) a (broadcastInDim ⟨2, ![100000, 128]⟩ ![0, 1] h2 (broadcastInDim ⟨2, ![1, 128]⟩ ![1] h1 b)))
    (broadcastInDim ⟨2, ![100000, 128]⟩ ![] h0 (constant (F := Ideal) S_ .f32 0x00000000#32))

variable (h1 : (⟨1, ![128]⟩ : Shape).BroadcastsInDim ⟨2, ![1, 128]⟩ ![1])
  (h2 : (⟨2, ![1, 128]⟩ : Shape).BroadcastsInDim ⟨2, ![100000, 128]⟩ ![0, 1])
  (h0 : (⟨0, ![]⟩ : Shape).BroadcastsInDim ⟨2, ![100000, 128]⟩ ![])

/-- The whole-array form at (P, q). -/
theorem biasRelu_apply (a : S100000x128.Idx → EReal) (b : S128.Idx → EReal) (P : Fin 100000) (q : Fin 128) :
    biasRelu h1 h2 h0 a b (ix2 P q) = max (a (ix2 P q) + b (ix1 q)) (Scalar.ofBits (F := Ideal) .f32 0x00000000#32) := by
  show max (a (ix2 P q) + broadcastInDim ⟨2, ![100000, 128]⟩ ![0, 1] h2 (broadcastInDim ⟨2, ![1, 128]⟩ ![1] h1 b) (ix2 P q))
      (broadcastInDim ⟨2, ![100000, 128]⟩ ![] h0 (constant (F := Ideal) S_ .f32 0x00000000#32) (ix2 P q)) = _
  rw [bcastRow_apply, bcastScalar_apply]
  rfl

/-- One entry of a written block against the whole-array form, over plain blocks and arrays. -/
theorem point_eq (x0 : Vec Ideal S5000x128 .f32) (x1 : Vec Ideal S1x128 .f32) (A : S100000x128.Idx → EReal) (b : S128.Idx → EReal)
    (T : ℕ) (y : S5000x128.Idx) (i : S100000x128.Idx)
    (hx0 : ∀ (p : Fin 5000) (q : Fin 128) (P : Fin 100000), P.val = T * 5000 + p.val → x0 (ix2 p q) = A (ix2 P q))
    (hx1 : ∀ q : Fin 128, x1 (ix2 (0 : Fin 1) q) = b (ix1 q))
    (hi0 : (i 0).val = T * 5000 + (y 0).val) (hi1 : (i 1).val = (y 1).val) :
    k3_pay1 (F := Ideal) x0 x1 y = biasRelu h1 h2 h0 A b i := by
  obtain ⟨p, q, rfl⟩ : ∃ (p : Fin 5000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hP : P.val = T * 5000 + p.val := hi0
  obtain rfl : Q = q := Fin.ext hi1
  rw [body_apply, biasRelu_apply, hx0 p Q P hP, hx1 Q]

/-- Entry (p, q) of row block `t` of the input is entry (5000 t + p, q) of the array. -/
theorem read_input (c : Dev nD) (t : Fin cfg3.N) (p : Fin 5000) (q : Fin 128) (P : Fin 100000)
    (hP : P.val = t.val * 5000 + p.val) : iblk3 V c 0 t (ix2 p q) = V c main_v59 (ix2 P q) := by
  obtain ⟨e0, e1, -⟩ := index_maps t
  show V c main_v59 (((cfg3.win 0).blk t).view.emb (ix2 p q)) = V c main_v59 (ix2 P q)
  refine congrArg (V c main_v59) (funext fun a => Fin.ext ?_)
  match a with
  | ⟨0, _⟩ => show win3_0.index t (0 : Fin 2) * 5000 + 1 * p.val = P.val; omega
  | ⟨1, _⟩ => show win3_0.index t (1 : Fin 2) * 128 + 1 * q.val = q.val; omega

/-- The bias window's one block is the whole 1 × 128 array, which holds the bias vector cast to one row. -/
theorem read_bias (c : Dev nD) (t : Fin cfg3.N) (b : S128.Idx → EReal) (hc : S128.ShapeCasts S1x128)
    (hb : (V c main_v60 : S1x128.Idx → EReal) = shapeCast S1x128 b hc) (q : Fin 128) :
    iblk3 V c 1 t (ix2 (0 : Fin 1) q) = b (ix1 q) := by
  obtain ⟨-, -, e2, e3, -⟩ := index_maps t
  have e : iblk3 V c 1 t (ix2 (0 : Fin 1) q) = V c main_v60 (ix2 (0 : Fin 1) q) := by
    show V c main_v60 (((cfg3.win 1).blk t).view.emb (ix2 (0 : Fin 1) q)) = V c main_v60 (ix2 (0 : Fin 1) q)
    refine congrArg (V c main_v60) (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  rw [e, hb]
  exact shapeCast_a_1a_apply b hc 0 q

/-- What grid point `t` writes back is block `t` of the whole-array form of the entry arrays. -/
theorem flushed_eq (c : Dev nD) (b : S128.Idx → EReal) (hc : S128.ShapeCasts S1x128)
    (hb : (V c main_v60 : S1x128.Idx → EReal) = shapeCast S1x128 b hc) (t : Fin cfg3.N) :
    (dat3 V c).flushed 2 t = ((cfg3.win 2).blk t).view.read (Elt Ideal) (biasRelu h1 h2 h0 (V c main_v59) b) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  obtain ⟨-, -, -, -, e4, e5⟩ := index_maps t
  funext j
  show k3_pay1 (F := Ideal) (iblk3 V c 0 t) (iblk3 V c 1 t) j
    = biasRelu h1 h2 h0 (V c main_v59) b (((cfg3.win 2).blk t).view.emb j)
  exact point_eq h1 h2 h0 (iblk3 V c 0 t) (iblk3 V c 1 t) (V c main_v59) b t.val j (((cfg3.win 2).blk t).view.emb j)
    (fun p q P hP => read_input V c t p q P hP) (fun q => read_bias V c t b hc hb q)
    (by show win3_2.index t (0 : Fin 2) * 5000 + 1 * (j 0).val = t.val * 5000 + (j 0).val; omega)
    (by show win3_2.index t (1 : Fin 2) * 128 + 1 * (j 1).val = (j 1).val; omega)

/-- An index of the output is in point `t`'s block iff each coordinate is in the block's range on its axis. -/
theorem mem_block (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v61).slice (win3_2.rect t)).set ↔ _
  rw [View.set_slice_whole, Rect.mem_set_unit]
  exact Iff.rfl

/-- The 20 row blocks tile the output: row r lies in block r / 5000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have ht : (i 0).val / 5000 < cfg3.N := by rw [show cfg3.N = 20 from N_3]; omega
  obtain ⟨-, -, -, -, e4, e5⟩ := index_maps ⟨(i 0).val / 5000, ht⟩
  refine ⟨⟨(i 0).val / 5000, ht⟩, flush3_2 _, ?_⟩
  rw [mem_block]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    rw [e5]; omega

/-- THE REGION'S VALUE: after the region the output array is max(0, a + b) of the entry array and the bias vector. -/
theorem value (c : Dev nD) (b : S128.Idx → EReal) (hc : S128.ShapeCasts S1x128)
    (hb : (V c main_v60 : S1x128.Idx → EReal) = shapeCast S1x128 b hc) :
    (dat3 V c).arrAt 2 cfg3.N = biasRelu h1 h2 h0 (V c main_v59) b :=
  (dat3 V c).arrAt_eq_of_cover 2 (biasRelu h1 h2 h0 (V c main_v59) b) (fun t _ => flushed_eq V h1 h2 h0 c b hc hb t) cover

end Cert.KernelIdeal.Region3

end
-- ==== Proof.Region4.lean ====
/-
  Region 4: the third projection. Each of the 20 grid points multiplies a block of 5000 rows of the
  features (100000 × 128) by the whole 128 × 128 weight and writes the 5000 × 128 block of products; the blocks tile the
  output, so after the region the output array is the plain matrix product of the two entry arrays, entry by entry a
  sum over the contracted coordinate.
-/
import proofs.«170732_j32890859553003_1_alg».proof.Proof.Gen.KernelIdeal.Frame
import proofs.«170732_j32890859553003_1_alg».proof.Proof.LibHostRead
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region4

open Cert.KernelIdeal Cert.KernelIdeal.Gen Idealize.ShloMosaic Idealize.ShloMosaic.TcCoe Idealize.ShloMosaic.ValueIdx
open Idealize.SL.Sem Cert.LibHR

variable (V : (c : Dev nD) → (b : Ref sig .tc) → Buf (Elt Ideal) ((c : Thread nD τ).loc b))

theorem zero_offsets : (![0, 0] : Fin 2 → Nat) = fun _ => 0 := funext fun a => by fin_cases a <;> rfl

/-- The body's product of a 5000 × 128 block by the 128 × 128 weight, read at (p, q): the sum over the 128 features. The
    change of float format before the product, and the body's cast of the block to its own shape, are the identity. -/
theorem body_apply (x0 : Vec Ideal S5000x128 .f32) (x1 : Vec Ideal S128x128 .f32) (p : Fin 5000) (q : Fin 128) :
    k4_pay1 (F := Ideal) x0 x1 (ix2 p q) = ∑ k : Fin 128, x0 (ix2 p k) * x1 (ix2 k q) := by
  show FloatOps.matmul (F := Ideal) (φ₁ := .bf16) (φ₂ := .bf16) (plainDotDims 5000 128 128 dot_S5000x128_S128x128_S5000x128_1_0_0_1_n_n.wf) none
      (shapeCast S5000x128 x0 shapeCasts_S5000x128_S5000x128) x1 (constant (F := Ideal) ⟨2, ![5000, 128]⟩ .f32 0x00000000#32) (ix2 p q) = _
  rw [shapeCast_self]
  exact plainMatmul_zero_apply (φ₁ := .bf16) (φ₂ := .bf16) 5000 128 128 dot_S5000x128_S128x128_S5000x128_1_0_0_1_n_n.wf x0 x1 p q

/-- The block index maps over the grid: row block `t` of the features and of the output, the whole weight. -/
theorem index_maps : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The product of the whole arrays. -/
abbrev product (wf : DotDims.WF ⟨2, ![100000, 128]⟩ ⟨2, ![128, 128]⟩ ⟨2, ![100000, 128]⟩ [1] [0] [0] [1] [] [])
    (x : S100000x128.Idx → EReal) (w : S128x128.Idx → EReal) : S100000x128.Idx → EReal :=
  Host.dotGeneral (F := Ideal) (φ₁ := .f32) (φ₂ := .f32) (plainDotDims 100000 128 128 wf) none x w

variable (wf : DotDims.WF ⟨2, ![100000, 128]⟩ ⟨2, ![128, 128]⟩ ⟨2, ![100000, 128]⟩ [1] [0] [0] [1] [] [])

/-- One entry of a written block against the product of the whole arrays, over plain blocks and arrays: when the
    feature block `x0` is rows `T·5000 …` of `X` and the weight block is `Wt`, entry `y` of the body's product is
    entry `i` of `X · Wt`, for `i` the array index of `y` in row block `T`. -/
theorem point_eq (x0 : Vec Ideal S5000x128 .f32) (x1 : Vec Ideal S128x128 .f32) (X : S100000x128.Idx → EReal) (Wt : S128x128.Idx → EReal)
    (T : ℕ) (y : S5000x128.Idx) (i : S100000x128.Idx)
    (hx0 : ∀ (p : Fin 5000) (k : Fin 128) (P : Fin 100000), P.val = T * 5000 + p.val → x0 (ix2 p k) = X (ix2 P k))
    (hx1 : ∀ (k : Fin 128) (q : Fin 128), x1 (ix2 k q) = Wt (ix2 k q))
    (hi0 : (i 0).val = T * 5000 + (y 0).val) (hi1 : (i 1).val = (y 1).val) :
    k4_pay1 (F := Ideal) x0 x1 y = product wf X Wt i := by
  obtain ⟨p, q, rfl⟩ : ∃ (p : Fin 5000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hP : P.val = T * 5000 + p.val := hi0
  obtain rfl : Q = q := Fin.ext hi1
  rw [body_apply]
  refine Eq.trans ?_ (plainDot_apply (φ₁ := .f32) (φ₂ := .f32) 100000 128 128 wf X Wt P Q).symm
  exact Finset.sum_congr rfl fun k _ => by rw [hx0 p k P hP, hx1 k Q]

/-- Entry (p, k) of row block `t` of the features is entry (5000 t + p, k) of the array. -/
theorem read_features (c : Dev nD) (t : Fin cfg4.N) (p : Fin 5000) (k : Fin 128) (P : Fin 100000)
    (hP : P.val = t.val * 5000 + p.val) : iblk4 V c 0 t (ix2 p k) = V c main_v61 (ix2 P k) := by
  obtain ⟨e0, e1, -⟩ := index_maps t
  show V c main_v61 (((cfg4.win 0).blk t).view.emb (ix2 p k)) = V c main_v61 (ix2 P k)
  refine congrArg (V c main_v61) (funext fun a => Fin.ext ?_)
  match a with
  | ⟨0, _⟩ => show win4_0.index t (0 : Fin 2) * 5000 + 1 * p.val = P.val; omega
  | ⟨1, _⟩ => show win4_0.index t (1 : Fin 2) * 128 + 1 * k.val = k.val; omega

/-- The weight's one block is the whole weight. -/
theorem read_weight (c : Dev nD) (t : Fin cfg4.N) (k : Fin 128) (q : Fin 128) :
    iblk4 V c 1 t (ix2 k q) = V c main_arg6 (ix2 k q) := by
  obtain ⟨-, -, e2, e3, -⟩ := index_maps t
  show V c main_arg6 (((cfg4.win 1).blk t).view.emb (ix2 k q)) = V c main_arg6 (ix2 k q)
  refine congrArg (V c main_arg6) (funext fun a => Fin.ext ?_)
  match a with
  | ⟨0, _⟩ => show win4_1.index t (0 : Fin 2) * 128 + 1 * k.val = k.val; omega
  | ⟨1, _⟩ => show win4_1.index t (1 : Fin 2) * 128 + 1 * q.val = q.val; omega

/-- What grid point `t` writes back is block `t` of the product of the entry arrays. -/
theorem flushed_eq (c : Dev nD) (t : Fin cfg4.N) :
    (dat4 V c).flushed 2 t = ((cfg4.win 2).blk t).view.read (Elt Ideal) (product wf (V c main_v61) (V c main_arg6)) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x128) zero_offsets]
  obtain ⟨-, -, -, -, e4, e5⟩ := index_maps t
  funext j
  show k4_pay1 (F := Ideal) (iblk4 V c 0 t) (iblk4 V c 1 t) j
    = product wf (V c main_v61) (V c main_arg6) (((cfg4.win 2).blk t).view.emb j)
  exact point_eq wf (iblk4 V c 0 t) (iblk4 V c 1 t) (V c main_v61) (V c main_arg6) t.val j (((cfg4.win 2).blk t).view.emb j)
    (fun p k P hP => read_features V c t p k P hP) (fun k q => read_weight V c t k q)
    (by show win4_2.index t (0 : Fin 2) * 5000 + 1 * (j 0).val = t.val * 5000 + (j 0).val; omega)
    (by show win4_2.index t (1 : Fin 2) * 128 + 1 * (j 1).val = (j 1).val; omega)

/-- An index of the output is in point `t`'s block iff each coordinate is in the block's range on its axis. -/
theorem mem_block (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v62).slice (win4_2.rect t)).set ↔ _
  rw [View.set_slice_whole, Rect.mem_set_unit]
  exact Iff.rfl

/-- The 20 row blocks tile the output: row r lies in block r / 5000. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have ht : (i 0).val / 5000 < cfg4.N := by rw [show cfg4.N = 20 from N_4]; omega
  obtain ⟨-, -, -, -, e4, e5⟩ := index_maps ⟨(i 0).val / 5000, ht⟩
  refine ⟨⟨(i 0).val / 5000, ht⟩, flush4_2 _, ?_⟩
  rw [mem_block]
  intro a
  match a with
  | ⟨0, _⟩ =>
    show win4_2.index ⟨(i 0).val / 5000, ht⟩ (0 : Fin 2) * 5000 ≤ (i 0).val
      ∧ (i 0).val < win4_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, ht⟩ (1 : Fin 2) * 128 ≤ (i 1).val
      ∧ (i 1).val < win4_2.index ⟨(i 0).val / 5000, ht⟩ (1 : Fin 2) * 128 + 128
    rw [e5]; omega

/-- THE REGION'S VALUE: after the region the output array is the product of the two arrays the region found. -/
theorem value (c : Dev nD) :
    (dat4 V c).arrAt 2 cfg4.N = product wf (V c main_v61) (V c main_arg6) :=
  (dat4 V c).arrAt_eq_of_cover 2 (product wf (V c main_v61) (V c main_arg6)) (fun t _ => flushed_eq V wf c t) cover

end Cert.KernelIdeal.Region4

end
-- ==== Proof.Region5.lean ====
/-
  Region 5: bias and max(0, ·) after the third aggregation. Each of the 20 grid points adds the 128-entry bias (held as a
  1 × 128 array) to every row of a block of 5000 rows and takes the maximum with 0; the blocks tile the output, so after
  the region the output array is max(0, a + b) of the entry array `a` and the bias `b` repeated down the rows.
-/
import proofs.«170732_j32890859553003_1_alg».proof.Proof.Gen.KernelIdeal.Frame
import proofs.«170732_j32890859553003_1_alg».proof.Proof.LibHostRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region5

open Cert.KernelIdeal Cert.KernelIdeal.Gen Idealize.ShloMosaic Idealize.ShloMosaic.TcCoe Idealize.ShloMosaic.ValueIdx
open Idealize.SL.Sem Cert.LibHR

variable (V : (c : Dev nD) → (b : Ref sig .tc) → Buf (Elt Ideal) ((c : Thread nD τ).loc b))

theorem zero_offsets : (![0, 0] : Fin 2 → Nat) = fun _ => 0 := funext fun a => by fin_cases a <;> rfl

/-- The body at (p, q): the block's entry plus the bias row's entry of that column, then the maximum with 0. The body's
    casts of the blocks to their own shapes are the identity. -/
theorem body_apply (x0 : Vec Ideal S5000x128 .f32) (x1 : Vec Ideal S1x128 .f32) (p : Fin 5000) (q : Fin 128) :
    k5_pay1 (F := Ideal) x0 x1 (ix2 p q)
      = max (x0 (ix2 p q) + x1 (ix2 (0 : Fin 1) q)) (Scalar.ofBits (F := Ideal) .f32 0x00000000#32) := by
  show max (shapeCast S5000x128 x0 shapeCasts_S5000x128_S5000x128 (ix2 p q)
      + broadcastTo S5000x128 (shapeCast S1x128 x1 shapeCasts_S1x128_S1x128) broadcasts_S1x128_S5000x128 (ix2 p q)) _ = _
  rw [shapeCast_self, shapeCast_self, broadcastTo_1b_ab_apply]
  rfl

/-- The block index maps over the grid: row block `t` of the input and of the output, the whole bias row. -/
theorem index_maps : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- max(0, a + b) of whole arrays, the bias repeated down the rows, in the host's operations. -/
abbrev biasRelu (h1 : (⟨1, ![128]⟩ : Shape).BroadcastsInDim ⟨2, ![1, 128]⟩ ![1])
    (h2 : (⟨2, ![1, 128]⟩ : Shape).BroadcastsInDim ⟨2, ![100000, 128]⟩ ![0, 1])
    (h0 : (⟨0, ![]⟩ : Shape).BroadcastsInDim ⟨2, ![100000, 128]⟩ ![])
    (a : S100000x128.Idx → EReal) (b : S128.Idx → EReal) : S100000x128.Idx → EReal :=
  maximumf (F := Ideal) (φ := .f32)
    (addf (F := Ideal) (φ := .f32) a (broadcastInDim ⟨2, ![100000, 128]⟩ ![0, 1] h2 (broadcastInDim ⟨2, ![1, 128]⟩ ![1] h1 b)))
    (broadcastInDim ⟨2, ![100000, 128]⟩ ![] h0 (constant (F := Ideal) S_ .f32 0x00000000#32))

variable (h1 : (⟨1, ![128]⟩ : Shape).BroadcastsInDim ⟨2, ![1, 128]⟩ ![1])
  (h2 : (⟨2, ![1, 128]⟩ : Shape).BroadcastsInDim ⟨2, ![100000, 128]⟩ ![0, 1])
  (h0 : (⟨0, ![]⟩ : Shape).BroadcastsInDim ⟨2, ![100000, 128]⟩ ![])

/-- The whole-array form at (P, q). -/
theorem biasRelu_apply (a : S100000x128.Idx → EReal) (b : S128.Idx → EReal) (P : Fin 100000) (q : Fin 128) :
    biasRelu h1 h2 h0 a b (ix2 P q) = max (a (ix2 P q) + b (ix1 q)) (Scalar.ofBits (F := Ideal) .f32 0x00000000#32) := by
  show max (a (ix2 P q) + broadcastInDim ⟨2, ![100000, 128]⟩ ![0, 1] h2 (broadcastInDim ⟨2, ![1, 128]⟩ ![1] h1 b) (ix2 P q))
      (broadcastInDim ⟨2, ![100000, 128]⟩ ![] h0 (constant (F := Ideal) S_ .f32 0x00000000#32) (ix2 P q)) = _
  rw [bcastRow_apply, bcastScalar_apply]
  rfl

/-- One entry of a written block against the whole-array form, over plain blocks and arrays. -/
theorem point_eq (x0 : Vec Ideal S5000x128 .f32) (x1 : Vec Ideal S1x128 .f32) (A : S100000x128.Idx → EReal) (b : S128.Idx → EReal)
    (T : ℕ) (y : S5000x128.Idx) (i : S100000x128.Idx)
    (hx0 : ∀ (p : Fin 5000) (q : Fin 128) (P : Fin 100000), P.val = T * 5000 + p.val → x0 (ix2 p q) = A (ix2 P q))
    (hx1 : ∀ q : Fin 128, x1 (ix2 (0 : Fin 1) q) = b (ix1 q))
    (hi0 : (i 0).val = T * 5000 + (y 0).val) (hi1 : (i 1).val = (y 1).val) :
    k5_pay1 (F := Ideal) x0 x1 y = biasRelu h1 h2 h0 A b i := by
  obtain ⟨p, q, rfl⟩ : ∃ (p : Fin 5000) (q : Fin 128), y = ix2 p q := ⟨y 0, y 1, eq_ix2 y⟩
  obtain ⟨P, Q, rfl⟩ : ∃ (P : Fin 100000) (Q : Fin 128), i = ix2 P Q := ⟨i 0, i 1, eq_ix2 i⟩
  have hP : P.val = T * 5000 + p.val := hi0
  obtain rfl : Q = q := Fin.ext hi1
  rw [body_apply, biasRelu_apply, hx0 p Q P hP, hx1 Q]

/-- Entry (p, q) of row block `t` of the input is entry (5000 t + p, q) of the array. -/
theorem read_input (c : Dev nD) (t : Fin cfg5.N) (p : Fin 5000) (q : Fin 128) (P : Fin 100000)
    (hP : P.val = t.val * 5000 + p.val) : iblk5 V c 0 t (ix2 p q) = V c main_v75 (ix2 P q) := by
  obtain ⟨e0, e1, -⟩ := index_maps t
  show V c main_v75 (((cfg5.win 0).blk t).view.emb (ix2 p q)) = V c main_v75 (ix2 P q)
  refine congrArg (V c main_v75) (funext fun a => Fin.ext ?_)
  match a with
  | ⟨0, _⟩ => show win5_0.index t (0 : Fin 2) * 5000 + 1 * p.val = P.val; omega
  | ⟨1, _⟩ => show win5_0.index t (1 : Fin 2) * 128 + 1 * q.val = q.val; omega

/-- The bias window's one block is the whole 1 × 128 array, which holds the bias vector cast to one row. -/
theorem read_bias (c : Dev nD) (t : Fin cfg5.N) (b : S128.Idx → EReal) (hc : S128.ShapeCasts S1x128)
    (hb : (V c main_v76 : S1x128.Idx → EReal) = shapeCast S1x128 b hc) (q : Fin 128) :
    iblk5 V c 1 t (ix2 (0 : Fin 1) q) = b (ix1 q) := by
  obtain ⟨-, -, e2, e3, -⟩ := index_maps t
  have e : iblk5 V c 1 t (ix2 (0 : Fin 1) q) = V c main_v76 (ix2 (0 : Fin 1) q) := by
    show V c main_v76 (((cfg5.win 1).blk t).view.emb (ix2 (0 : Fin 1) q)) = V c main_v76 (ix2 (0 : Fin 1) q)
    refine congrArg (V c main_v76) (funext fun a => Fin.ext ?_)
    match a with
    | ⟨0, _⟩ => show win5_1.index t (0 : Fin 2) * 1 + 1 * 0 = 0; omega
    | ⟨1, _⟩ => show win5_1.index t (1 : Fin 2) * 128 + 1 * q.val = q.val; omega
  rw [e, hb]
  exact shapeCast_a_1a_apply b hc 0 q

/-- What grid point `t` writes back is block `t` of the whole-array form of the entry arrays. -/
theorem flushed_eq (c : Dev nD) (b : S128.Idx → EReal) (hc : S128.ShapeCasts S1x128)
    (hb : (V c main_v76 : S1x128.Idx → EReal) = shapeCast S1x128 b hc) (t : Fin cfg5.N) :
    (dat5 V c).flushed 2 t = ((cfg5.win 2).blk t).view.read (Elt Ideal) (biasRelu h1 h2 h0 (V c main_v75) b) := by
  show (cfg5.win 2).cut (grid5.coords t) ((dat5 V c).after 2 t) = _
  rw [after5_2]
  unfold out5_2
  rw [View.canon_unit_zero zero_offsets]
  simp only [View.ld_unit_zero (S := S5000x128) zero_offsets, View.ld_unit_zero (S := S1x128) zero_offsets]
  obtain ⟨-, -, -, -, e4, e5⟩ := index_maps t
  funext j
  show k5_pay1 (F := Ideal) (iblk5 V c 0 t) (iblk5 V c 1 t) j
    = biasRelu h1 h2 h0 (V c main_v75) b (((cfg5.win 2).blk t).view.emb j)
  exact point_eq h1 h2 h0 (iblk5 V c 0 t) (iblk5 V c 1 t) (V c main_v75) b t.val j (((cfg5.win 2).blk t).view.emb j)
    (fun p q P hP => read_input V c t p q P hP) (fun q => read_bias V c t b hc hb q)
    (by show win5_2.index t (0 : Fin 2) * 5000 + 1 * (j 0).val = t.val * 5000 + (j 0).val; omega)
    (by show win5_2.index t (1 : Fin 2) * 128 + 1 * (j 1).val = (j 1).val; omega)

/-- An index of the output is in point `t`'s block iff each coordinate is in the block's range on its axis. -/
theorem mem_block (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v77).slice (win5_2.rect t)).set ↔ _
  rw [View.set_slice_whole, Rect.mem_set_unit]
  exact Iff.rfl

/-- The 20 row blocks tile the output: row r lies in block r / 5000. -/
theorem cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have ht : (i 0).val / 5000 < cfg5.N := by rw [show cfg5.N = 20 from N_5]; omega
  obtain ⟨-, -, -, -, e4, e5⟩ := index_maps ⟨(i 0).val / 5000, ht⟩
  refine ⟨⟨(i 0).val / 5000, ht⟩, flush5_2 _, ?_⟩
  rw [mem_block]
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 128 ≤ (i 1).val
      ∧ (i 1).val < win5_2.index ⟨(i 0).val / 5000, ht⟩ (1 : Fin 2) * 128 + 128
    rw [e5]; omega

/-- THE REGION'S VALUE: after the region the output array is max(0, a + b) of the entry array and the bias vector. -/
theorem value (c : Dev nD) (b : S128.Idx → EReal) (hc : S128.ShapeCasts S1x128)
    (hb : (V c main_v76 : S1x128.Idx → EReal) = shapeCast S1x128 b hc) :
    (dat5 V c).arrAt 2 cfg5.N = biasRelu h1 h2 h0 (V c main_v75) b :=
  (dat5 V c).arrAt_eq_of_cover 2 (biasRelu h1 h2 h0 (V c main_v75) b) (fun t _ => flushed_eq V h1 h2 h0 c b hc hb t) cover

end Cert.KernelIdeal.Region5

end
-- ==== Proof.Region6.lean ====
/-
  Region 6: the first dense layer. Each of the 20 grid points multiplies a block of 5000 rows of the features (100000 × 128) by the
  whole 128 × 64 weight, adds the 64-entry bias (held as a 1 × 64 array) to every row and takes the maximum with 0; the blocks
  tile the output, so after the region the output array is max(0, x · w + b) of the entry arrays, the bias repeated down the rows.
-/
import proofs.«170732_j32890859553003_1_alg».proof.Proof.Gen.KernelIdeal.Frame
import proofs.«170732_j32890859553003_1_alg».proof.Proof.LibHostRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region6

open Cert.KernelIdeal Cert.KernelIdeal.Gen Idealize.ShloMosaic Idealize.ShloMosaic.TcCoe Idealize.ShloMosaic.ValueIdx
open Idealize.SL.Sem Cert.LibHR

variable (V : (c : Dev nD) → (b : Ref sig .tc) → Buf (Elt Ideal) ((c : Thread nD τ).loc b))

theorem zero_offsets : (![0, 0] : Fin 2 → Nat) = fun _ => 0 := funext fun a => by fin_cases a <;> rfl

/-- The body at (p, q): the sum over the 128 features of block entry times weight entry, plus the bias row's entry of
    that column, then the maximum with 0. The change of float format before the product and the body's casts of the blocks to their
    own shapes are the identity. -/
theorem body_apply (x0 : Vec Ideal S5000x128 .f32) (x1 : Vec Ideal S128x64 .f32) (x2 : Vec Ideal S1x64 .f32) (p : Fin 5000) (q : Fin 64) :
    k6_pay1 (F := Ideal) x0 x1 x2 (ix2 p q)
      = max ((∑ k : Fin 128, x0 (ix2 p k) * x1 (ix2 k q)) + x2 (ix2 (0 : Fin 1) q)) (Scalar.ofBits (F := Ideal) .f32 0x00000000#32) := by
  show max (FloatOps.matmul (F := Ideal) (φ₁ := .bf16) (φ₂ := .bf16) (plainDotDims 5000 128 64 dot_S5000x128_S128x64_S5000x64_1_0_0_1_n_n.wf) none
        (shapeCast S5000x128 x0 shapeCasts_S5000x128_S5000x128) x1 (constant (F := Ideal) ⟨2, ![5000, 64]⟩ .f32 0x00000000#32) (ix2 p q)
      + broadcastTo S5000x64 (shapeCast S1x64 x2 shapeCasts_S1x64_S1x64) broadcasts_S1x64_S5000x64 (ix2 p q)) _ = _
  rw [shapeCast_self, shapeCast_self, broadcastTo_1b_ab_apply,
    plainMatmul_zero_apply (φ₁ := .bf16) (φ₂ := .bf16) 5000 128 64 dot_S5000x128_S128x64_S5000x64_1_0_0_1_n_n.wf x0 x1 p q]
  rfl

/-- The block index maps over the grid: row block `t` of the features and of the output, the whole weight and bias. -/
theorem index_maps : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- max(0, x · w + b) of whole arrays, the bias repeated down the rows, in the host's operations. -/
abbrev dense (wf : DotDims.WF ⟨2, ![100000, 128]⟩ ⟨2, ![128, 64]⟩ ⟨2, ![100000, 64]⟩ [1] [0] [0] [1] [] [])
    (h1 : (⟨1, ![64]⟩ : Shape).BroadcastsInDim ⟨2, ![1, 64]⟩ ![1])
    (h2 : (⟨2, ![1, 64]⟩ : Shape).BroadcastsInDim ⟨2, ![100000, 64]⟩ ![0, 1])
    (h0 : (⟨0, ![]⟩ : Shape).BroadcastsInDim ⟨2, ![100000, 64]⟩ ![])
    (x : S100000x128.Idx → EReal) (w : S128x64.Idx → EReal) (b : S64.Idx → EReal) : S100000x64.Idx → EReal :=
  maximumf (F := Ideal) (φ := .f32)
    (addf (F := Ideal) (φ := .f32) (Host.dotGeneral (F := Ideal) (φ₁ := .f32) (φ₂ := .f32) (plainDotDims 100000 128 64 wf) none x w)
      (broadcastInDim ⟨2, ![100000, 64]⟩ ![0, 1] h2 (broadcastInDim ⟨2, ![1, 64]⟩ ![1] h1 b)))
    (broadcastInDim ⟨2, ![100000, 64]⟩ ![] h0 (constant (F := Ideal) S_ .f32 0x00000000#32))

variable (wf : DotDims.WF ⟨2, ![100000, 128]⟩ ⟨2, ![128, 64]⟩ ⟨2, ![100000, 64]⟩ [1] [0] [0] [1] [] [])
  (h1 : (⟨1, ![64]⟩ : Shape).BroadcastsInDim ⟨2, ![1, 64]⟩ ![1])
  (h2 : (⟨2, ![1, 64]⟩ : Shape).BroadcastsInDim ⟨2, ![100000, 64]⟩ ![0, 1])
  (h0 : (⟨0, ![]⟩ : Shape).BroadcastsInDim ⟨2, ![100000, 64]⟩ ![])

/-- The whole-array form at (P, q). -/
theorem dense_apply (X : S100000x128.Idx → EReal) (Wt : S128x64.Idx → EReal) (b : S64.Idx → EReal) (P : Fin 100000) (q : Fin 64) :
    dense wf h1 h2 h0 X Wt b (ix2 P q) = max ((∑ k : Fin 128, X (ix2 P k) * Wt (ix2 k q)) + b (ix1 q)) (Scalar.ofBits (F := Ideal) .f32 0x00000000#32) := by
  show max (Host.dotGeneral (F := Ideal) (φ₁ := .f32) (φ₂ := .f32) (plainDotDims 100000 128 64 wf) none X Wt (ix2 P q)
      + broadcastInDim ⟨2, ![100000, 64]⟩ ![0, 1] h2 (broadcastInDim ⟨2, ![1, 64]⟩ ![1] h1 b) (ix2 P q))
      (broadcastInDim ⟨2, ![100000, 64]⟩ ![] h0 (constant (F := Ideal) S_ .f32 0x00000000#32) (ix2 P q)) = _
  rw [plainDot_apply, bcastRow_apply, bcastScalar_apply]
  rfl

/-- One entry of a written block against the whole-array form, over plain blocks and arrays. -/
theorem point_eq (x0 : Vec Ideal S5000x128 .f32) (x1 : Vec Ideal S128x64 .f32) (x2 : Vec Ideal S1x64 .f32)
    (X : S100000x128.Idx → EReal) (Wt : S128x64.Idx → EReal) (b : S64.Idx → EReal)
    (T : ℕ) (y : S5000x64.Idx) (i : S100000x64.Idx)
    (hx0 : ∀ (p : Fin 5000) (k : Fin 128) (P : Fin 100000), P.val = T * 5000 + p.val → x0 (ix2 p k) = X (ix2 P k))
    (hx1 : ∀ (k : Fin 128) (q : Fin 64), x1 (ix2 k q) = Wt (ix2 k q))
    (hx2 : ∀ q : Fin 64, x2 (ix2 (0 : Fin 1) q) = b (ix1 q))
    (hi0 : (i 0).val = T * 5000 + (y 0).val) (hi1 : (i 1).val = (y 1).val) :
    k6_pay1 (F := Ideal) x0 x1 x2 y = dense wf h1 h2 h0 X Wt b i := by
  obtain ⟨p, q, rfl⟩ : ∃ (p : Fin 5000) (q : Fin 64), y = ix2 p q := ⟨y 0, y 1, eq_ix2 y⟩
  obtain ⟨P, Q, rfl⟩ : ∃ (P : Fin 100000) (Q : Fin 64), i = ix2 P Q := ⟨i 0, i 1, eq_ix2 i⟩
  have hP : P.val = T * 5000 + p.val := hi0
  obtain rfl : Q = q := Fin.ext hi1
  rw [body_apply, dense_apply, hx2 Q]
  have hs : (∑ k : Fin 128, x0 (ix2 p k) * x1 (ix2 k Q)) = ∑ k : Fin 128, X (ix2 P k) * Wt (ix2 k Q) :=
    Finset.sum_congr rfl fun k _ => by rw [hx0 p k P hP, hx1 k Q]
  rw [hs]

/-- Entry (p, k) of row block `t` of the features is entry (5000 t + p, k) of the array. -/
theorem read_features (c : Dev nD) (t : Fin cfg6.N) (p : Fin 5000) (k : Fin 128) (P : Fin 100000)
    (hP : P.val = t.val * 5000 + p.val) : iblk6 V c 0 t (ix2 p k) = V c main_v77 (ix2 P k) := by
  obtain ⟨e0, e1, -⟩ := index_maps t
  show V c main_v77 (((cfg6.win 0).blk t).view.emb (ix2 p k)) = V c main_v77 (ix2 P k)
  refine congrArg (V c main_v77) (funext fun a => Fin.ext ?_)
  match a with
  | ⟨0, _⟩ => show win6_0.index t (0 : Fin 2) * 5000 + 1 * p.val = P.val; omega
  | ⟨1, _⟩ => show win6_0.index t (1 : Fin 2) * 128 + 1 * k.val = k.val; omega

/-- The weight's one block is the whole weight. -/
theorem read_weight (c : Dev nD) (t : Fin cfg6.N) (k : Fin 128) (q : Fin 64) :
    iblk6 V c 1 t (ix2 k q) = V c main_arg8 (ix2 k q) := by
  obtain ⟨-, -, e2, e3, -⟩ := index_maps t
  show V c main_arg8 (((cfg6.win 1).blk t).view.emb (ix2 k q)) = V c main_arg8 (ix2 k q)
  refine congrArg (V c main_arg8) (funext fun a => Fin.ext ?_)
  match a with
  | ⟨0, _⟩ => show win6_1.index t (0 : Fin 2) * 128 + 1 * k.val = k.val; omega
  | ⟨1, _⟩ => show win6_1.index t (1 : Fin 2) * 64 + 1 * q.val = q.val; omega

/-- The bias window's one block is the whole 1 × 64 array, which holds the bias vector cast to one row. -/
theorem read_bias (c : Dev nD) (t : Fin cfg6.N) (b : S64.Idx → EReal) (hc : S64.ShapeCasts S1x64)
    (hb : (V c main_v78 : S1x64.Idx → EReal) = shapeCast S1x64 b hc) (q : Fin 64) :
    iblk6 V c 2 t (ix2 (0 : Fin 1) q) = b (ix1 q) := by
  obtain ⟨-, -, -, -, e4, e5, -⟩ := index_maps t
  have e : iblk6 V c 2 t (ix2 (0 : Fin 1) q) = V c main_v78 (ix2 (0 : Fin 1) q) := by
    show V c main_v78 (((cfg6.win 2).blk t).view.emb (ix2 (0 : Fin 1) q)) = V c main_v78 (ix2 (0 : Fin 1) q)
    refine congrArg (V c main_v78) (funext fun a => Fin.ext ?_)
    match a with
    | ⟨0, _⟩ => show win6_2.index t (0 : Fin 2) * 1 + 1 * 0 = 0; omega
    | ⟨1, _⟩ => show win6_2.index t (1 : Fin 2) * 64 + 1 * q.val = q.val; omega
  rw [e, hb]
  exact shapeCast_a_1a_apply b hc 0 q

/-- What grid point `t` writes back is block `t` of the whole-array form of the entry arrays. -/
theorem flushed_eq (c : Dev nD) (b : S64.Idx → EReal) (hc : S64.ShapeCasts S1x64)
    (hb : (V c main_v78 : S1x64.Idx → EReal) = shapeCast S1x64 b hc) (t : Fin cfg6.N) :
    (dat6 V c).flushed 3 t = ((cfg6.win 3).blk t).view.read (Elt Ideal) (dense wf h1 h2 h0 (V c main_v77) (V c main_arg8) b) := by
  show (cfg6.win 3).cut (grid6.coords t) ((dat6 V c).after 3 t) = _
  rw [after6_3]
  unfold out6_3
  rw [View.canon_unit_zero zero_offsets]
  simp only [View.ld_unit_zero (S := S5000x128) zero_offsets, View.ld_unit_zero (S := S128x64) zero_offsets,
    View.ld_unit_zero (S := S1x64) zero_offsets]
  obtain ⟨-, -, -, -, -, -, e6, e7⟩ := index_maps t
  funext j
  show k6_pay1 (F := Ideal) (iblk6 V c 0 t) (iblk6 V c 1 t) (iblk6 V c 2 t) j
    = dense wf h1 h2 h0 (V c main_v77) (V c main_arg8) b (((cfg6.win 3).blk t).view.emb j)
  exact point_eq wf h1 h2 h0 (iblk6 V c 0 t) (iblk6 V c 1 t) (iblk6 V c 2 t) (V c main_v77) (V c main_arg8) b t.val j
    (((cfg6.win 3).blk t).view.emb j)
    (fun p k P hP => read_features V c t p k P hP) (fun k q => read_weight V c t k q) (fun q => read_bias V c t b hc hb q)
    (by show win6_3.index t (0 : Fin 2) * 5000 + 1 * (j 0).val = t.val * 5000 + (j 0).val; omega)
    (by show win6_3.index t (1 : Fin 2) * 64 + 1 * (j 1).val = (j 1).val; omega)

/-- An index of the output is in point `t`'s block iff each coordinate is in the block's range on its axis. -/
theorem mem_block (t : Fin cfg6.N) (i : S100000x64.Idx) :
    i ∈ ((cfg6.win 3).blk t).view.set ↔ ∀ a : Fin 2, win6_3.index t a * S5000x64.size a ≤ (i a).val
      ∧ (i a).val < win6_3.index t a * S5000x64.size a + S5000x64.size a := by
  show i ∈ ((View.whole main_v79).slice (win6_3.rect t)).set ↔ _
  rw [View.set_slice_whole, Rect.mem_set_unit]
  exact Iff.rfl

/-- The 20 row blocks tile the output: row r lies in block r / 5000. -/
theorem cover (i : S100000x64.Idx) :
    ∃ t : Fin cfg6.N, (cfg6.win 3).flush t = true ∧ i ∈ ((cfg6.win 3).blk t).view.set := by
  have hi0 : (i 0).val < 100000 := (i 0).isLt
  have hi1 : (i 1).val < 64 := (i 1).isLt
  have ht : (i 0).val / 5000 < cfg6.N := by rw [show cfg6.N = 20 from N_6]; omega
  obtain ⟨-, -, -, -, -, -, e6, e7⟩ := index_maps ⟨(i 0).val / 5000, ht⟩
  refine ⟨⟨(i 0).val / 5000, ht⟩, flush6_3 _, ?_⟩
  rw [mem_block]
  intro a
  match a with
  | ⟨0, _⟩ =>
    show win6_3.index ⟨(i 0).val / 5000, ht⟩ (0 : Fin 2) * 5000 ≤ (i 0).val
      ∧ (i 0).val < win6_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win6_3.index ⟨(i 0).val / 5000, ht⟩ (1 : Fin 2) * 64 ≤ (i 1).val
      ∧ (i 1).val < win6_3.index ⟨(i 0).val / 5000, ht⟩ (1 : Fin 2) * 64 + 64
    rw [e7]; omega

/-- THE REGION'S VALUE: after the region the output array is max(0, x · w + b) of the entry arrays and the bias vector. -/
theorem value (c : Dev nD) (b : S64.Idx → EReal) (hc : S64.ShapeCasts S1x64)
    (hb : (V c main_v78 : S1x64.Idx → EReal) = shapeCast S1x64 b hc) :
    (dat6 V c).arrAt 3 cfg6.N = dense wf h1 h2 h0 (V c main_v77) (V c main_arg8) b :=
  (dat6 V c).arrAt_eq_of_cover 3 (dense wf h1 h2 h0 (V c main_v77) (V c main_arg8) b) (fun t _ => flushed_eq V wf h1 h2 h0 c b hc hb t) cover

end Cert.KernelIdeal.Region6

end
-- ==== Proof.Region7.lean ====
/-
  Region 7: the last dense layer. Each of the 20 grid points multiplies a block of 5000 rows of the features (100000 × 64) by the
  whole 64 × 2 weight, adds the 2-entry bias (held as a 1 × 2 array) to every row; the blocks
  tile the output, so after the region the output array is x · w + b of the entry arrays, the bias repeated down the rows.
-/
import proofs.«170732_j32890859553003_1_alg».proof.Proof.Gen.KernelIdeal.Frame
import proofs.«170732_j32890859553003_1_alg».proof.Proof.LibHostRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region7

open Cert.KernelIdeal Cert.KernelIdeal.Gen Idealize.ShloMosaic Idealize.ShloMosaic.TcCoe Idealize.ShloMosaic.ValueIdx
open Idealize.SL.Sem Cert.LibHR

variable (V : (c : Dev nD) → (b : Ref sig .tc) → Buf (Elt Ideal) ((c : Thread nD τ).loc b))

theorem zero_offsets : (![0, 0] : Fin 2 → Nat) = fun _ => 0 := funext fun a => by fin_cases a <;> rfl

/-- The body at (p, q): the sum over the 64 features of block entry times weight entry, plus the bias row's entry of
    that column. The change of float format before the product and the body's casts of the blocks to their
    own shapes are the identity. -/
theorem body_apply (x0 : Vec Ideal S5000x64 .f32) (x1 : Vec Ideal S64x2 .f32) (x2 : Vec Ideal S1x2 .f32) (p : Fin 5000) (q : Fin 2) :
    k7_pay1 (F := Ideal) x0 x1 x2 (ix2 p q)
      = (∑ k : Fin 64, x0 (ix2 p k) * x1 (ix2 k q)) + x2 (ix2 (0 : Fin 1) q) := by
  show FloatOps.matmul (F := Ideal) (φ₁ := .bf16) (φ₂ := .bf16) (plainDotDims 5000 64 2 dot_S5000x64_S64x2_S5000x2_1_0_0_1_n_n.wf) none
        (shapeCast S5000x64 x0 shapeCasts_S5000x64_S5000x64) x1 (constant (F := Ideal) ⟨2, ![5000, 2]⟩ .f32 0x00000000#32) (ix2 p q)
      + broadcastTo S5000x2 (shapeCast S1x2 x2 shapeCasts_S1x2_S1x2) broadcasts_S1x2_S5000x2 (ix2 p q) = _
  rw [shapeCast_self, shapeCast_self, broadcastTo_1b_ab_apply,
    plainMatmul_zero_apply (φ₁ := .bf16) (φ₂ := .bf16) 5000 64 2 dot_S5000x64_S64x2_S5000x2_1_0_0_1_n_n.wf x0 x1 p q]

/-- The block index maps over the grid: row block `t` of the features and of the output, the whole weight and bias. -/
theorem index_maps : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- x · w + b of whole arrays, the bias repeated down the rows, in the host's operations. -/
abbrev dense (wf : DotDims.WF ⟨2, ![100000, 64]⟩ ⟨2, ![64, 2]⟩ ⟨2, ![100000, 2]⟩ [1] [0] [0] [1] [] [])
    (h1 : (⟨1, ![2]⟩ : Shape).BroadcastsInDim ⟨2, ![1, 2]⟩ ![1])
    (h2 : (⟨2, ![1, 2]⟩ : Shape).BroadcastsInDim ⟨2, ![100000, 2]⟩ ![0, 1])
    (x : S100000x64.Idx → EReal) (w : S64x2.Idx → EReal) (b : S2.Idx → EReal) : S100000x2.Idx → EReal :=
  addf (F := Ideal) (φ := .f32) (Host.dotGeneral (F := Ideal) (φ₁ := .f32) (φ₂ := .f32) (plainDotDims 100000 64 2 wf) none x w)
      (broadcastInDim ⟨2, ![100000, 2]⟩ ![0, 1] h2 (broadcastInDim ⟨2, ![1, 2]⟩ ![1] h1 b))

variable (wf : DotDims.WF ⟨2, ![100000, 64]⟩ ⟨2, ![64, 2]⟩ ⟨2, ![100000, 2]⟩ [1] [0] [0] [1] [] [])
  (h1 : (⟨1, ![2]⟩ : Shape).BroadcastsInDim ⟨2, ![1, 2]⟩ ![1])
  (h2 : (⟨2, ![1, 2]⟩ : Shape).BroadcastsInDim ⟨2, ![100000, 2]⟩ ![0, 1])

/-- The whole-array form at (P, q). -/
theorem dense_apply (X : S100000x64.Idx → EReal) (Wt : S64x2.Idx → EReal) (b : S2.Idx → EReal) (P : Fin 100000) (q : Fin 2) :
    dense wf h1 h2 X Wt b (ix2 P q) = (∑ k : Fin 64, X (ix2 P k) * Wt (ix2 k q)) + b (ix1 q) := by
  show Host.dotGeneral (F := Ideal) (φ₁ := .f32) (φ₂ := .f32) (plainDotDims 100000 64 2 wf) none X Wt (ix2 P q)
      + broadcastInDim ⟨2, ![100000, 2]⟩ ![0, 1] h2 (broadcastInDim ⟨2, ![1, 2]⟩ ![1] h1 b) (ix2 P q) = _
  rw [plainDot_apply, bcastRow_apply]

/-- One entry of a written block against the whole-array form, over plain blocks and arrays. -/
theorem point_eq (x0 : Vec Ideal S5000x64 .f32) (x1 : Vec Ideal S64x2 .f32) (x2 : Vec Ideal S1x2 .f32)
    (X : S100000x64.Idx → EReal) (Wt : S64x2.Idx → EReal) (b : S2.Idx → EReal)
    (T : ℕ) (y : S5000x2.Idx) (i : S100000x2.Idx)
    (hx0 : ∀ (p : Fin 5000) (k : Fin 64) (P : Fin 100000), P.val = T * 5000 + p.val → x0 (ix2 p k) = X (ix2 P k))
    (hx1 : ∀ (k : Fin 64) (q : Fin 2), x1 (ix2 k q) = Wt (ix2 k q))
    (hx2 : ∀ q : Fin 2, x2 (ix2 (0 : Fin 1) q) = b (ix1 q))
    (hi0 : (i 0).val = T * 5000 + (y 0).val) (hi1 : (i 1).val = (y 1).val) :
    k7_pay1 (F := Ideal) x0 x1 x2 y = dense wf h1 h2 X Wt b i := by
  obtain ⟨p, q, rfl⟩ : ∃ (p : Fin 5000) (q : Fin 2), y = ix2 p q := ⟨y 0, y 1, eq_ix2 y⟩
  obtain ⟨P, Q, rfl⟩ : ∃ (P : Fin 100000) (Q : Fin 2), i = ix2 P Q := ⟨i 0, i 1, eq_ix2 i⟩
  have hP : P.val = T * 5000 + p.val := hi0
  obtain rfl : Q = q := Fin.ext hi1
  rw [body_apply, dense_apply, hx2 Q]
  have hs : (∑ k : Fin 64, x0 (ix2 p k) * x1 (ix2 k Q)) = ∑ k : Fin 64, X (ix2 P k) * Wt (ix2 k Q) :=
    Finset.sum_congr rfl fun k _ => by rw [hx0 p k P hP, hx1 k Q]
  rw [hs]

/-- Entry (p, k) of row block `t` of the features is entry (5000 t + p, k) of the array. -/
theorem read_features (c : Dev nD) (t : Fin cfg7.N) (p : Fin 5000) (k : Fin 64) (P : Fin 100000)
    (hP : P.val = t.val * 5000 + p.val) : iblk7 V c 0 t (ix2 p k) = V c main_v79 (ix2 P k) := by
  obtain ⟨e0, e1, -⟩ := index_maps t
  show V c main_v79 (((cfg7.win 0).blk t).view.emb (ix2 p k)) = V c main_v79 (ix2 P k)
  refine congrArg (V c main_v79) (funext fun a => Fin.ext ?_)
  match a with
  | ⟨0, _⟩ => show win7_0.index t (0 : Fin 2) * 5000 + 1 * p.val = P.val; omega
  | ⟨1, _⟩ => show win7_0.index t (1 : Fin 2) * 64 + 1 * k.val = k.val; omega

/-- The weight's one block is the whole weight. -/
theorem read_weight (c : Dev nD) (t : Fin cfg7.N) (k : Fin 64) (q : Fin 2) :
    iblk7 V c 1 t (ix2 k q) = V c main_arg10 (ix2 k q) := by
  obtain ⟨-, -, e2, e3, -⟩ := index_maps t
  show V c main_arg10 (((cfg7.win 1).blk t).view.emb (ix2 k q)) = V c main_arg10 (ix2 k q)
  refine congrArg (V c main_arg10) (funext fun a => Fin.ext ?_)
  match a with
  | ⟨0, _⟩ => show win7_1.index t (0 : Fin 2) * 64 + 1 * k.val = k.val; omega
  | ⟨1, _⟩ => show win7_1.index t (1 : Fin 2) * 2 + 1 * q.val = q.val; omega

/-- The bias window's one block is the whole 1 × 2 array, which holds the bias vector cast to one row. -/
theorem read_bias (c : Dev nD) (t : Fin cfg7.N) (b : S2.Idx → EReal) (hc : S2.ShapeCasts S1x2)
    (hb : (V c main_v80 : S1x2.Idx → EReal) = shapeCast S1x2 b hc) (q : Fin 2) :
    iblk7 V c 2 t (ix2 (0 : Fin 1) q) = b (ix1 q) := by
  obtain ⟨-, -, -, -, e4, e5, -⟩ := index_maps t
  have e : iblk7 V c 2 t (ix2 (0 : Fin 1) q) = V c main_v80 (ix2 (0 : Fin 1) q) := by
    show V c main_v80 (((cfg7.win 2).blk t).view.emb (ix2 (0 : Fin 1) q)) = V c main_v80 (ix2 (0 : Fin 1) q)
    refine congrArg (V c main_v80) (funext fun a => Fin.ext ?_)
    match a with
    | ⟨0, _⟩ => show win7_2.index t (0 : Fin 2) * 1 + 1 * 0 = 0; omega
    | ⟨1, _⟩ => show win7_2.index t (1 : Fin 2) * 2 + 1 * q.val = q.val; omega
  rw [e, hb]
  exact shapeCast_a_1a_apply b hc 0 q

/-- What grid point `t` writes back is block `t` of the whole-array form of the entry arrays. -/
theorem flushed_eq (c : Dev nD) (b : S2.Idx → EReal) (hc : S2.ShapeCasts S1x2)
    (hb : (V c main_v80 : S1x2.Idx → EReal) = shapeCast S1x2 b hc) (t : Fin cfg7.N) :
    (dat7 V c).flushed 3 t = ((cfg7.win 3).blk t).view.read (Elt Ideal) (dense wf h1 h2 (V c main_v79) (V c main_arg10) b) := by
  show (cfg7.win 3).cut (grid7.coords t) ((dat7 V c).after 3 t) = _
  rw [after7_3]
  unfold out7_3
  rw [View.canon_unit_zero zero_offsets]
  simp only [View.ld_unit_zero (S := S5000x64) zero_offsets, View.ld_unit_zero (S := S64x2) zero_offsets,
    View.ld_unit_zero (S := S1x2) zero_offsets]
  obtain ⟨-, -, -, -, -, -, e6, e7⟩ := index_maps t
  funext j
  show k7_pay1 (F := Ideal) (iblk7 V c 0 t) (iblk7 V c 1 t) (iblk7 V c 2 t) j
    = dense wf h1 h2 (V c main_v79) (V c main_arg10) b (((cfg7.win 3).blk t).view.emb j)
  exact point_eq wf h1 h2 (iblk7 V c 0 t) (iblk7 V c 1 t) (iblk7 V c 2 t) (V c main_v79) (V c main_arg10) b t.val j
    (((cfg7.win 3).blk t).view.emb j)
    (fun p k P hP => read_features V c t p k P hP) (fun k q => read_weight V c t k q) (fun q => read_bias V c t b hc hb q)
    (by show win7_3.index t (0 : Fin 2) * 5000 + 1 * (j 0).val = t.val * 5000 + (j 0).val; omega)
    (by show win7_3.index t (1 : Fin 2) * 2 + 1 * (j 1).val = (j 1).val; omega)

/-- An index of the output is in point `t`'s block iff each coordinate is in the block's range on its axis. -/
theorem mem_block (t : Fin cfg7.N) (i : S100000x2.Idx) :
    i ∈ ((cfg7.win 3).blk t).view.set ↔ ∀ a : Fin 2, win7_3.index t a * S5000x2.size a ≤ (i a).val
      ∧ (i a).val < win7_3.index t a * S5000x2.size a + S5000x2.size a := by
  show i ∈ ((View.whole main_v81).slice (win7_3.rect t)).set ↔ _
  rw [View.set_slice_whole, Rect.mem_set_unit]
  exact Iff.rfl

/-- The 20 row blocks tile the output: row r lies in block r / 5000. -/
theorem cover (i : S100000x2.Idx) :
    ∃ t : Fin cfg7.N, (cfg7.win 3).flush t = true ∧ i ∈ ((cfg7.win 3).blk t).view.set := by
  have hi0 : (i 0).val < 100000 := (i 0).isLt
  have hi1 : (i 1).val < 2 := (i 1).isLt
  have ht : (i 0).val / 5000 < cfg7.N := by rw [show cfg7.N = 20 from N_7]; omega
  obtain ⟨-, -, -, -, -, -, e6, e7⟩ := index_maps ⟨(i 0).val / 5000, ht⟩
  refine ⟨⟨(i 0).val / 5000, ht⟩, flush7_3 _, ?_⟩
  rw [mem_block]
  intro a
  match a with
  | ⟨0, _⟩ =>
    show win7_3.index ⟨(i 0).val / 5000, ht⟩ (0 : Fin 2) * 5000 ≤ (i 0).val
      ∧ (i 0).val < win7_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win7_3.index ⟨(i 0).val / 5000, ht⟩ (1 : Fin 2) * 2 ≤ (i 1).val
      ∧ (i 1).val < win7_3.index ⟨(i 0).val / 5000, ht⟩ (1 : Fin 2) * 2 + 2
    rw [e7]; omega

/-- THE REGION'S VALUE: after the region the output array is x · w + b of the entry arrays and the bias vector. -/
theorem value (c : Dev nD) (b : S2.Idx → EReal) (hc : S2.ShapeCasts S1x2)
    (hb : (V c main_v80 : S1x2.Idx → EReal) = shapeCast S1x2 b hc) :
    (dat7 V c).arrAt 3 cfg7.N = dense wf h1 h2 (V c main_v79) (V c main_arg10) b :=
  (dat7 V c).arrAt_eq_of_cover 3 (dense wf h1 h2 (V c main_v79) (V c main_arg10) b) (fun t _ => flushed_eq V wf h1 h2 c b hc hb t) cover

end Cert.KernelIdeal.Region7

end
-- ==== Proof.Chain.lean ====
/-
  The idealized kernel program's result, followed through its sixteen segments. Each stage is one region's value (the
  matrix product, or bias and maximum, of the arrays the region found) or one host stretch's results (the messages'
  endpoints and weights; an aggregation; a bias vector laid out as one row); between stages the walk lemmas carry an
  array forward unchanged. The host operations are those of the reference program, so every stage lands on the matching
  named piece of the network, and the last region's output is the whole network of the twelve argument arrays.
-/
import proofs.«170732_j32890859553003_1_alg».proof.Proof.Gen.KernelIdeal.Frame
import proofs.«170732_j32890859553003_1_alg».proof.Proof.Walk
import proofs.«170732_j32890859553003_1_alg».proof.Proof.Region0
import proofs.«170732_j32890859553003_1_alg».proof.Proof.Region1
import proofs.«170732_j32890859553003_1_alg».proof.Proof.Region2
import proofs.«170732_j32890859553003_1_alg».proof.Proof.Region3
import proofs.«170732_j32890859553003_1_alg».proof.Proof.Region4
import proofs.«170732_j32890859553003_1_alg».proof.Proof.Region5
import proofs.«170732_j32890859553003_1_alg».proof.Proof.Region6
import proofs.«170732_j32890859553003_1_alg».proof.Proof.Region7
import proofs.«170732_j32890859553003_1_alg».proof.Proof.Spec
import Idealize.ShloMosaic.Lib.StableHlo.Run
import Idealize.ShloMosaic.PureOps.Ideal

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Cert.GcnSpec

variable (m : (ℓ : Loc nD τ sig) → Buf (Elt Ideal) ℓ) (ρ : Dev nD → PrngReg) (c : Dev nD)

/-! ## The twelve argument arrays as launched -/

abbrev aX : Arr Ideal Cert.ReferenceIdeal.S100000x3 .f32 := m ((c : Thread nD τ).loc main_arg0)
abbrev aE : Arr Ideal Cert.ReferenceIdeal.S2x600000 .i32 := m ((c : Thread nD τ).loc main_arg1)
abbrev aW1 : Arr Ideal Cert.ReferenceIdeal.S3x64 .f32 := m ((c : Thread nD τ).loc main_arg2)
abbrev aB1 : Arr Ideal Cert.ReferenceIdeal.S64 .f32 := m ((c : Thread nD τ).loc main_arg3)
abbrev aW2 : Arr Ideal Cert.ReferenceIdeal.S64x128 .f32 := m ((c : Thread nD τ).loc main_arg4)
abbrev aB2 : Arr Ideal Cert.ReferenceIdeal.S128 .f32 := m ((c : Thread nD τ).loc main_arg5)
abbrev aW3 : Arr Ideal Cert.ReferenceIdeal.S128x128 .f32 := m ((c : Thread nD τ).loc main_arg6)
abbrev aB3 : Arr Ideal Cert.ReferenceIdeal.S128 .f32 := m ((c : Thread nD τ).loc main_arg7)
abbrev aFW1 : Arr Ideal Cert.ReferenceIdeal.S128x64 .f32 := m ((c : Thread nD τ).loc main_arg8)
abbrev aFB1 : Arr Ideal Cert.ReferenceIdeal.S64 .f32 := m ((c : Thread nD τ).loc main_arg9)
abbrev aFW2 : Arr Ideal Cert.ReferenceIdeal.S64x2 .f32 := m ((c : Thread nD τ).loc main_arg10)
abbrev aFB2 : Arr Ideal Cert.ReferenceIdeal.S2 .f32 := m ((c : Thread nD τ).loc main_arg11)

/-! ## The long host stretches, from an arbitrary entry valuation

Each is read once, for any contents `V` of the buffers when the stretch is entered: its result is the matching piece of
the network applied to what `V` holds at the stretch's operands. -/

section Stretches

variable (V : Valuation τ sig (Elt Ideal))

theorem stretch_positive : (StableHlo.after hostOps0 V (Proc.devRef .tc main_v12) : Arr Ideal Cert.ReferenceIdeal.S100000 .i1)
    = cmpf (F := Ideal) (φ := .f32) .ogt (degree (V (Proc.devRef .tc main_arg1))) (broadcastInDim Cert.ReferenceIdeal.S100000 ![] Cert.ReferenceIdeal.Gen.bcast_S_S100000 (constant (F := Ideal) Cert.ReferenceIdeal.S_ .f32 0x00000000#32)) := by
  after_results_simp
  rfl

theorem stretch_rsqrt : (StableHlo.after hostOps0 V (Proc.devRef .tc main_v13) : Arr Ideal Cert.ReferenceIdeal.S100000 .f32)
    = Host.rsqrt (F := Ideal) (φ := .f32) (degree (V (Proc.devRef .tc main_arg1))) := by
  after_results_simp
  rfl

theorem stretch_zero : (StableHlo.after hostOps0 V (Proc.devRef .tc main_cst_2) : Arr Ideal Cert.ReferenceIdeal.S_ .f32) = constant (F := Ideal) Cert.ReferenceIdeal.S_ .f32 0x00000000#32 := by
  after_results_simp

theorem stretch_where : (StableHlo.after hostOps0_1 V (Proc.devRef .tc main_v14) : Arr Ideal Cert.ReferenceIdeal.S100000 .f32)
    = select (V (Proc.devRef .tc main_v12)) (V (Proc.devRef .tc main_v13))
        (broadcastInDim Cert.ReferenceIdeal.S100000 ![] Cert.ReferenceIdeal.Gen.bcast_S_S100000 (id (V (Proc.devRef .tc main_cst_2)))) := by
  after_results_simp
  rfl

theorem stretch_norm : (StableHlo.after hostOps0_2 V (Proc.devRef .tc main_v29) : Arr Ideal Cert.ReferenceIdeal.S700000 .f32)
    = edgeNormOf (V (Proc.devRef .tc main_v14)) (V (Proc.devRef .tc main_v5)) (V (Proc.devRef .tc main_v6)) := by
  after_results_simp
  rfl

theorem stretch_agg1 : (StableHlo.after hostOps1 V (Proc.devRef .tc main_v43) : Arr Ideal Cert.ReferenceIdeal.S100000x64 .f32)
    = aggregateOf64 (V (Proc.devRef .tc main_v5)) (V (Proc.devRef .tc main_v6)) (V (Proc.devRef .tc main_v29)) (V (Proc.devRef .tc main_v30)) := by
  after_results_simp
  rfl

theorem stretch_agg2 : (StableHlo.after hostOps3 V (Proc.devRef .tc main_v59) : Arr Ideal Cert.ReferenceIdeal.S100000x128 .f32)
    = aggregateOf128 (V (Proc.devRef .tc main_v5)) (V (Proc.devRef .tc main_v6)) (V (Proc.devRef .tc main_v29)) (V (Proc.devRef .tc main_v46)) := by
  after_results_simp
  rfl

theorem stretch_agg3 : (StableHlo.after hostOps5 V (Proc.devRef .tc main_v75) : Arr Ideal Cert.ReferenceIdeal.S100000x128 .f32)
    = aggregateOf128 (V (Proc.devRef .tc main_v5)) (V (Proc.devRef .tc main_v6)) (V (Proc.devRef .tc main_v29)) (V (Proc.devRef .tc main_v62)) := by
  after_results_simp
  rfl

end Stretches

/-! ## Before the first region: the messages' endpoints and weights -/

theorem src_at3 : (W3 m ρ c (Proc.devRef .tc main_v5) : Arr Ideal Cert.ReferenceIdeal.S700000 .i32) = srcIdx (aE m c) := by
  show StableHlo.after hostOps0_2 (StableHlo.after hostOps0_1 (StableHlo.after hostOps0 (W0 m ρ c))) (Proc.devRef .tc main_v5) = _
  after_results
  rfl

theorem dst_at3 : (W3 m ρ c (Proc.devRef .tc main_v6) : Arr Ideal Cert.ReferenceIdeal.S700000 .i32) = dstIdx (aE m c) := by
  show StableHlo.after hostOps0_2 (StableHlo.after hostOps0_1 (StableHlo.after hostOps0 (W0 m ρ c))) (Proc.devRef .tc main_v6) = _
  after_results
  rfl

theorem src_at2 : (W2 m ρ c (Proc.devRef .tc main_v5) : Arr Ideal Cert.ReferenceIdeal.S700000 .i32) = srcIdx (aE m c) := by
  show StableHlo.after hostOps0_1 (StableHlo.after hostOps0 (W0 m ρ c)) (Proc.devRef .tc main_v5) = _
  after_results
  rfl

theorem dst_at2 : (W2 m ρ c (Proc.devRef .tc main_v6) : Arr Ideal Cert.ReferenceIdeal.S700000 .i32) = dstIdx (aE m c) := by
  show StableHlo.after hostOps0_1 (StableHlo.after hostOps0 (W0 m ρ c)) (Proc.devRef .tc main_v6) = _
  after_results
  rfl

theorem positive_at1 : (W1 m ρ c (Proc.devRef .tc main_v12) : Arr Ideal Cert.ReferenceIdeal.S100000 .i1)
    = cmpf (F := Ideal) (φ := .f32) .ogt (degree (aE m c)) (broadcastInDim Cert.ReferenceIdeal.S100000 ![] Cert.ReferenceIdeal.Gen.bcast_S_S100000 (constant (F := Ideal) Cert.ReferenceIdeal.S_ .f32 0x00000000#32)) :=
  stretch_positive (W0 m ρ c)

theorem rsqrt_at1 : (W1 m ρ c (Proc.devRef .tc main_v13) : Arr Ideal Cert.ReferenceIdeal.S100000 .f32)
    = Host.rsqrt (F := Ideal) (φ := .f32) (degree (aE m c)) :=
  stretch_rsqrt (W0 m ρ c)

theorem zero_at1 : (W1 m ρ c (Proc.devRef .tc main_cst_2) : Arr Ideal Cert.ReferenceIdeal.S_ .f32) = constant (F := Ideal) Cert.ReferenceIdeal.S_ .f32 0x00000000#32 :=
  stretch_zero (W0 m ρ c)

theorem invSqrt_at2 : (W2 m ρ c (Proc.devRef .tc main_v14) : Arr Ideal Cert.ReferenceIdeal.S100000 .f32) = invSqrtDegree (aE m c) := by
  refine (stretch_where (W1 m ρ c)).trans ?_
  rw [positive_at1, rsqrt_at1, zero_at1]
  rfl

theorem norm_at3 : (W3 m ρ c (Proc.devRef .tc main_v29) : Arr Ideal Cert.ReferenceIdeal.S700000 .f32) = edgeNorm (aE m c) := by
  refine (stretch_norm (W2 m ρ c)).trans ?_
  rw [invSqrt_at2, src_at2, dst_at2]
  rfl

/-! ## The first layer -/

theorem proj1_at4 : (W4 m ρ c (Proc.devRef .tc main_v30) : Arr Ideal Cert.ReferenceIdeal.S100000x64 .f32) = proj3x64 (aX m c) (aW1 m c) := by
  refine (W4_arr m ρ c 2).trans ((Region0.value (V3 m ρ) Cert.ReferenceIdeal.Gen.dot_S100000x3_S3x64_S100000x64_1_0_0_1_n_n_wf c).trans ?_)
  show Region0.product _ (W3 m ρ c (Proc.devRef .tc main_arg0)) (W3 m ρ c (Proc.devRef .tc main_arg2)) = _
  rw [Walk.args_at3 m ρ c main_arg0 (by simp [Walk.args]), Walk.args_at3 m ρ c main_arg2 (by simp [Walk.args])]
  rfl

theorem agg1_at5 : (W5 m ρ c (Proc.devRef .tc main_v43) : Arr Ideal Cert.ReferenceIdeal.S100000x64 .f32)
    = aggregate64 (aE m c) (proj3x64 (aX m c) (aW1 m c)) := by
  refine (stretch_agg1 (W4 m ρ c)).trans ?_
  rw [Walk.graph_at4 m ρ c main_v5 (by simp [Walk.graph]), Walk.graph_at4 m ρ c main_v6 (by simp [Walk.graph]),
    Walk.graph_at4 m ρ c main_v29 (by simp [Walk.graph]), src_at3, dst_at3, norm_at3, proj1_at4]
  rfl

theorem bias1_at5 : (W5 m ρ c (Proc.devRef .tc main_v44) : Arr Ideal S1x64 .f32) = shapeCast S1x64 (aB1 m c) shapeCasts_S64_S1x64 := by
  show StableHlo.after hostOps1 (W4 m ρ c) (Proc.devRef .tc main_v44) = _
  after_results
  rw [Walk.args_at4 m ρ c main_arg3 (by simp [Walk.args])]
  rfl

theorem hidden1_at6 : (W6 m ρ c (Proc.devRef .tc main_v45) : Arr Ideal Cert.ReferenceIdeal.S100000x64 .f32)
    = hidden1 (aX m c) (aE m c) (aW1 m c) (aB1 m c) := by
  refine (W6_arr m ρ c 2).trans ((Region1.value (V5 m ρ) Cert.ReferenceIdeal.Gen.bcast_S64_S1x64_1 Cert.ReferenceIdeal.Gen.bcast_S1x64_S100000x64_0_1
    Cert.ReferenceIdeal.Gen.bcast_S_S100000x64 c (aB1 m c) shapeCasts_S64_S1x64 (bias1_at5 m ρ c)).trans ?_)
  show Region1.biasRelu _ _ _ (W5 m ρ c (Proc.devRef .tc main_v43)) (aB1 m c) = _
  rw [agg1_at5]
  rfl

/-! ## The second layer -/

theorem proj2_at7 : (W7 m ρ c (Proc.devRef .tc main_v46) : Arr Ideal Cert.ReferenceIdeal.S100000x128 .f32)
    = proj64x128 (hidden1 (aX m c) (aE m c) (aW1 m c) (aB1 m c)) (aW2 m c) := by
  refine (W7_arr m ρ c 2).trans ((Region2.value (V6 m ρ) Cert.ReferenceIdeal.Gen.dot_S100000x64_S64x128_S100000x128_1_0_0_1_n_n_wf c).trans ?_)
  show Region2.product _ (W6 m ρ c (Proc.devRef .tc main_v45)) (W6 m ρ c (Proc.devRef .tc main_arg4)) = _
  rw [hidden1_at6, Walk.args_at6 m ρ c main_arg4 (by simp [Walk.args])]
  rfl

theorem agg2_at8 : (W8 m ρ c (Proc.devRef .tc main_v59) : Arr Ideal Cert.ReferenceIdeal.S100000x128 .f32)
    = aggregate128 (aE m c) (proj64x128 (hidden1 (aX m c) (aE m c) (aW1 m c) (aB1 m c)) (aW2 m c)) := by
  refine (stretch_agg2 (W7 m ρ c)).trans ?_
  rw [Walk.graph_at7 m ρ c main_v5 (by simp [Walk.graph]), Walk.graph_at7 m ρ c main_v6 (by simp [Walk.graph]),
    Walk.graph_at7 m ρ c main_v29 (by simp [Walk.graph]), src_at3, dst_at3, norm_at3, proj2_at7]
  rfl

theorem bias2_at8 : (W8 m ρ c (Proc.devRef .tc main_v60) : Arr Ideal S1x128 .f32) = shapeCast S1x128 (aB2 m c) shapeCasts_S128_S1x128 := by
  show StableHlo.after hostOps3 (W7 m ρ c) (Proc.devRef .tc main_v60) = _
  after_results
  rw [Walk.args_at7 m ρ c main_arg5 (by simp [Walk.args])]
  rfl

theorem hidden2_at9 : (W9 m ρ c (Proc.devRef .tc main_v61) : Arr Ideal Cert.ReferenceIdeal.S100000x128 .f32)
    = hidden2 (aE m c) (hidden1 (aX m c) (aE m c) (aW1 m c) (aB1 m c)) (aW2 m c) (aB2 m c) := by
  refine (W9_arr m ρ c 2).trans ((Region3.value (V8 m ρ) Cert.ReferenceIdeal.Gen.bcast_S128_S1x128_1 Cert.ReferenceIdeal.Gen.bcast_S1x128_S100000x128_0_1
    Cert.ReferenceIdeal.Gen.bcast_S_S100000x128 c (aB2 m c) shapeCasts_S128_S1x128 (bias2_at8 m ρ c)).trans ?_)
  show Region3.biasRelu _ _ _ (W8 m ρ c (Proc.devRef .tc main_v59)) (aB2 m c) = _
  rw [agg2_at8]
  rfl

/-! ## The third layer -/

theorem proj3_at10 : (W10 m ρ c (Proc.devRef .tc main_v62) : Arr Ideal Cert.ReferenceIdeal.S100000x128 .f32)
    = proj128x128 (hidden2 (aE m c) (hidden1 (aX m c) (aE m c) (aW1 m c) (aB1 m c)) (aW2 m c) (aB2 m c)) (aW3 m c) := by
  refine (W10_arr m ρ c 2).trans ((Region4.value (V9 m ρ) Cert.ReferenceIdeal.Gen.dot_S100000x128_S128x128_S100000x128_1_0_0_1_n_n_wf c).trans ?_)
  show Region4.product _ (W9 m ρ c (Proc.devRef .tc main_v61)) (W9 m ρ c (Proc.devRef .tc main_arg6)) = _
  rw [hidden2_at9, Walk.args_at9 m ρ c main_arg6 (by simp [Walk.args])]
  rfl

theorem agg3_at11 : (W11 m ρ c (Proc.devRef .tc main_v75) : Arr Ideal Cert.ReferenceIdeal.S100000x128 .f32)
    = aggregate128 (aE m c) (proj128x128 (hidden2 (aE m c) (hidden1 (aX m c) (aE m c) (aW1 m c) (aB1 m c)) (aW2 m c) (aB2 m c)) (aW3 m c)) := by
  refine (stretch_agg3 (W10 m ρ c)).trans ?_
  rw [Walk.graph_at10 m ρ c main_v5 (by simp [Walk.graph]), Walk.graph_at10 m ρ c main_v6 (by simp [Walk.graph]),
    Walk.graph_at10 m ρ c main_v29 (by simp [Walk.graph]), src_at3, dst_at3, norm_at3, proj3_at10]
  rfl

theorem bias3_at11 : (W11 m ρ c (Proc.devRef .tc main_v76) : Arr Ideal S1x128 .f32) = shapeCast S1x128 (aB3 m c) shapeCasts_S128_S1x128 := by
  show StableHlo.after hostOps5 (W10 m ρ c) (Proc.devRef .tc main_v76) = _
  after_results
  rw [Walk.args_at10 m ρ c main_arg7 (by simp [Walk.args])]
  rfl

theorem hidden3_at12 : (W12 m ρ c (Proc.devRef .tc main_v77) : Arr Ideal Cert.ReferenceIdeal.S100000x128 .f32)
    = hidden3 (aE m c) (hidden2 (aE m c) (hidden1 (aX m c) (aE m c) (aW1 m c) (aB1 m c)) (aW2 m c) (aB2 m c)) (aW3 m c) (aB3 m c) := by
  refine (W12_arr m ρ c 2).trans ((Region5.value (V11 m ρ) Cert.ReferenceIdeal.Gen.bcast_S128_S1x128_1 Cert.ReferenceIdeal.Gen.bcast_S1x128_S100000x128_0_1
    Cert.ReferenceIdeal.Gen.bcast_S_S100000x128 c (aB3 m c) shapeCasts_S128_S1x128 (bias3_at11 m ρ c)).trans ?_)
  show Region5.biasRelu _ _ _ (W11 m ρ c (Proc.devRef .tc main_v75)) (aB3 m c) = _
  rw [agg3_at11]
  rfl

/-! ## The two dense layers -/

theorem hidden3_at13 : (W13 m ρ c (Proc.devRef .tc main_v77) : Arr Ideal Cert.ReferenceIdeal.S100000x128 .f32)
    = hidden3 (aE m c) (hidden2 (aE m c) (hidden1 (aX m c) (aE m c) (aW1 m c) (aB1 m c)) (aW2 m c) (aB2 m c)) (aW3 m c) (aB3 m c) := by
  refine Eq.trans ?_ (hidden3_at12 m ρ c)
  show StableHlo.after hostOps6 (W12 m ρ c) (Proc.devRef .tc main_v77) = _
  after_results

theorem fbias1_at13 : (W13 m ρ c (Proc.devRef .tc main_v78) : Arr Ideal S1x64 .f32) = shapeCast S1x64 (aFB1 m c) shapeCasts_S64_S1x64 := by
  show StableHlo.after hostOps6 (W12 m ρ c) (Proc.devRef .tc main_v78) = _
  after_results
  rw [Walk.args_at12 m ρ c main_arg9 (by simp [Walk.args])]
  rfl

theorem dense1_at14 : (W14 m ρ c (Proc.devRef .tc main_v79) : Arr Ideal Cert.ReferenceIdeal.S100000x64 .f32)
    = dense1 (hidden3 (aE m c) (hidden2 (aE m c) (hidden1 (aX m c) (aE m c) (aW1 m c) (aB1 m c)) (aW2 m c) (aB2 m c)) (aW3 m c) (aB3 m c))
        (aFW1 m c) (aFB1 m c) := by
  refine (W14_arr m ρ c 3).trans ((Region6.value (V13 m ρ) Cert.ReferenceIdeal.Gen.dot_S100000x128_S128x64_S100000x64_1_0_0_1_n_n_wf
    Cert.ReferenceIdeal.Gen.bcast_S64_S1x64_1 Cert.ReferenceIdeal.Gen.bcast_S1x64_S100000x64_0_1 Cert.ReferenceIdeal.Gen.bcast_S_S100000x64 c (aFB1 m c) shapeCasts_S64_S1x64
    (fbias1_at13 m ρ c)).trans ?_)
  show Region6.dense _ _ _ _ (W13 m ρ c (Proc.devRef .tc main_v77)) (W13 m ρ c (Proc.devRef .tc main_arg8)) (aFB1 m c) = _
  rw [hidden3_at13, Walk.args_at13 m ρ c main_arg8 (by simp [Walk.args])]
  rfl

theorem dense1_at15 : (W15 m ρ c (Proc.devRef .tc main_v79) : Arr Ideal Cert.ReferenceIdeal.S100000x64 .f32)
    = dense1 (hidden3 (aE m c) (hidden2 (aE m c) (hidden1 (aX m c) (aE m c) (aW1 m c) (aB1 m c)) (aW2 m c) (aB2 m c)) (aW3 m c) (aB3 m c))
        (aFW1 m c) (aFB1 m c) := by
  refine Eq.trans ?_ (dense1_at14 m ρ c)
  show StableHlo.after hostOps7 (W14 m ρ c) (Proc.devRef .tc main_v79) = _
  after_results

theorem fbias2_at15 : (W15 m ρ c (Proc.devRef .tc main_v80) : Arr Ideal S1x2 .f32) = shapeCast S1x2 (aFB2 m c) shapeCasts_S2_S1x2 := by
  show StableHlo.after hostOps7 (W14 m ρ c) (Proc.devRef .tc main_v80) = _
  after_results
  rw [Walk.args_at14 m ρ c main_arg11 (by simp [Walk.args])]
  rfl

/-- THE RESULT: what the last boundary holds for the result array is the network of the twelve arguments as launched. -/
theorem result_eq : (W16 m ρ c (Proc.devRef .tc main_v81) : Arr Ideal Cert.ReferenceIdeal.S100000x2 .f32)
    = network (aX m c) (aE m c) (aW1 m c) (aB1 m c) (aW2 m c) (aB2 m c) (aW3 m c) (aB3 m c) (aFW1 m c) (aFB1 m c) (aFW2 m c) (aFB2 m c) := by
  refine (W16_arr m ρ c 3).trans ((Region7.value (V15 m ρ) Cert.ReferenceIdeal.Gen.dot_S100000x64_S64x2_S100000x2_1_0_0_1_n_n_wf
    Cert.ReferenceIdeal.Gen.bcast_S2_S1x2_1 Cert.ReferenceIdeal.Gen.bcast_S1x2_S100000x2_0_1 c (aFB2 m c) shapeCasts_S2_S1x2 (fbias2_at15 m ρ c)).trans ?_)
  show Region7.dense _ _ _ (W15 m ρ c (Proc.devRef .tc main_v79)) (W15 m ρ c (Proc.devRef .tc main_arg10)) (aFB2 m c) = _
  rw [dense1_at15, Walk.args_at15 m ρ c main_arg10 (by simp [Walk.args])]
  rfl

end Cert.KernelIdeal.Chain

end
-- ==== Proof.lean ====
/-
  A three-layer graph convolution network followed by two dense layers, over 100000 nodes and 600000 edges: a Pallas
  implementation against its jnp reference, equal at the extended reals.

  The kernel program runs its five matrix products and its bias / max(0, ·) steps as eight row-blocked TensorCore
  regions (20 blocks of 5000 rows each) and everything else — the degree normalisation, the gathers along the messages
  and the scatter-additions onto their targets — as host operations, the same host operations the reference runs. On
  the extended reals a change of float format is the identity, and a block's matrix product into a zero accumulator is,
  entry by entry, the reference's product: a sum over the contracted coordinate. So each region leaves in its output
  array exactly the reference's whole-array operation of the arrays it found (Region0 … Region7), the host stretches in
  between are the reference's own terms (Chain), and the kernel program's result is the network of its twelve arguments
  (Spec) — which is, word for word, the reference's composed result. No law beyond the equality of those sums is used, so
  the finiteness of the inputs is never opened; nothing is assumed about the range of the edge indices either, both
  programs reading an out-of-range or negative index through the same gather and scatter.

  The ideal pass rewrote no operation of the kernel, so the idealization claim is trivial. The two kernel frames are the
  generated frame certificates; the reference's frame is its run with the result dropped.
-/
import proofs.«170732_j32890859553003_1_alg».proof.Defs
import proofs.«170732_j32890859553003_1_alg».proof.Proof.Gen.Kernel
import proofs.«170732_j32890859553003_1_alg».proof.Proof.Gen.Kernel.Skeleton
import proofs.«170732_j32890859553003_1_alg».proof.Proof.Gen.Kernel.Launch
import proofs.«170732_j32890859553003_1_alg».proof.Proof.Gen.Kernel.Points
import proofs.«170732_j32890859553003_1_alg».proof.Proof.Gen.Kernel.Frame
import proofs.«170732_j32890859553003_1_alg».proof.Proof.Gen.KernelIdeal
import proofs.«170732_j32890859553003_1_alg».proof.Proof.Gen.KernelIdeal.Skeleton
import proofs.«170732_j32890859553003_1_alg».proof.Proof.Gen.KernelIdeal.Launch
import proofs.«170732_j32890859553003_1_alg».proof.Proof.Gen.KernelIdeal.Points
import proofs.«170732_j32890859553003_1_alg».proof.Proof.Gen.KernelIdeal.Frame
import proofs.«170732_j32890859553003_1_alg».proof.Proof.Gen.ReferenceIdeal
import proofs.«170732_j32890859553003_1_alg».proof.Proof.Gen.Pre_finite_inputs
import proofs.«170732_j32890859553003_1_alg».proof.Proof.RefRun
import proofs.«170732_j32890859553003_1_alg».proof.Proof.Spec
import proofs.«170732_j32890859553003_1_alg».proof.Proof.KernelRun
import proofs.«170732_j32890859553003_1_alg».proof.Proof.Chain
import Idealize.ShloMosaic.Adequacy
import Idealize.ShloMosaic.Init

set_option maxRecDepth 16384

noncomputable section

namespace Cert.Proof

open Idealize.ShloMosaic Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-! ## The idealization: no operation was rewritten -/

theorem preserves : Cert.preserves_Kernel_KernelIdeal := trivial

/-! ## Equal results -/

/-- Both programs, from memories agreeing on the twelve arguments, end with the network of those arguments in their
    result arrays: the kernel program by its run read through its segments, the reference by its run's composed term. -/
theorem algebraic : Cert.algebraic_KernelIdeal_ReferenceIdeal := by
  intro m ρ m' ρ' _ hagree
  refine ⟨fun c => Cert.GcnSpec.network (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.result_eq m ρ c), (h c).2⟩) (Cert.KernelIdeal.ResultRun.run_result m ρ)
  · refine (θ_run Cert.ReferenceIdeal.defs _ _).mono (fun r h c => ⟨(h c).1.trans ?_, (h c).2⟩) (Cert.ReferenceIdeal.ValueP.run (F := Ideal) m' ρ')
    obtain ⟨a0, a1, a2, a3, a4, a5, a6, a7, a8, a9, a10, a11⟩ := hagree c
    rw [Cert.GcnSpec.reference_result_eq m' c, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
